-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_v169) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S3x128x512 : Shape := ⟨3, ![3, 128, 512]⟩
abbrev S3x512 : Shape := ⟨2, ![3, 512]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x103 : Shape := ⟨2, ![128, 103]⟩
abbrev S103 : Shape := ⟨1, ![103]⟩
abbrev S128x119 : Shape := ⟨2, ![128, 119]⟩
abbrev S119 : Shape := ⟨1, ![119]⟩
abbrev S128x11 : Shape := ⟨2, ![128, 11]⟩
abbrev S11 : Shape := ⟨1, ![11]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S3x128x512 : S_.BroadcastsInDim S3x128x512 (![] : Fin 0 → Fin S3x128x512.rank)
  reducesTo_S3x128x512_S_d0_1_2 : S3x128x512.ReducesTo [0, 1, 2] S_
  bcast_S_S3x512 : S_.BroadcastsInDim S3x512 (![] : Fin 0 → Fin S3x512.rank)
  reducesTo_S3x512_S_d0_1 : S3x512.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x103 : S_.BroadcastsInDim S128x103 (![] : Fin 0 → Fin S128x103.rank)
  reducesTo_S128x103_S_d0_1 : S128x103.ReducesTo [0, 1] S_
  bcast_S_S103 : S_.BroadcastsInDim S103 (![] : Fin 0 → Fin S103.rank)
  reducesTo_S103_S_d0 : S103.ReducesTo [0] S_
  bcast_S_S128x119 : S_.BroadcastsInDim S128x119 (![] : Fin 0 → Fin S128x119.rank)
  reducesTo_S128x119_S_d0_1 : S128x119.ReducesTo [0, 1] S_
  bcast_S_S119 : S_.BroadcastsInDim S119 (![] : Fin 0 → Fin S119.rank)
  reducesTo_S119_S_d0 : S119.ReducesTo [0] S_
  bcast_S_S128x11 : S_.BroadcastsInDim S128x11 (![] : Fin 0 → Fin S128x11.rank)
  reducesTo_S128x11_S_d0_1 : S128x11.ReducesTo [0, 1] S_
  bcast_S_S11 : S_.BroadcastsInDim S11 (![] : Fin 0 → Fin S11.rank)
  reducesTo_S11_S_d0 : S11.ReducesTo [0] S_

variable [Facts]

def fn_part4 {F : FTy → Type} [FloatOps F] (main_arg14 : FVec F S128x11 .f32) (main_arg15 : FVec F S11 .f32) (main_v63 : IVec S_ 1) (main_v67 : IVec S_ 1) : IVec S_ 1 :=
  let main_v68 : IVec S_ 1 := andi main_v63 main_v67
  let main_v69 : FVec F S128x11 .f32 := Host.absf main_arg14
  let main_cst_26 : FVec F S_ .f32 := constant S_ .f32 0x7F800000#32
  let main_v70 : FVec F S128x11 .f32 := broadcastInDim S128x11 ![] bcast_S_S128x11 main_cst_26
  let main_v71 : IVec S128x11 1 := cmpf .olt main_v69 main_v70
  let main_c_27 : IVec S_ 1 := constantI S_ 1 1#1
  let main_v72 : IVec S_ 1 := (fun x v => Host.reduce IntOp.andi x v reducesTo_S128x11_S_d0_1 h_S_) main_v71 main_c_27
  let main_v73 : IVec S_ 1 := andi main_v68 main_v72
  let main_v74 : FVec F S11 .f32 := Host.absf main_arg15
  let main_cst_28 : FVec F S_ .f32 := constant S_ .f32 0x7F800000#32
  let main_v75 : FVec F S11 .f32 := broadcastInDim S11 ![] bcast_S_S11 main_cst_28
  let main_v76 : IVec S11 1 := cmpf .olt main_v74 main_v75
  let main_c_29 : IVec S_ 1 := constantI S_ 1 1#1
  let main_v77 : IVec S_ 1 := (fun x v => Host.reduce IntOp.andi x v reducesTo_S11_S_d0 h_S_) main_v76 main_c_29
  let main_v78 : IVec S_ 1 := andi main_v73 main_v77
  main_v78

def fn_part3 {F : FTy → Type} [FloatOps F] (main_arg11 : FVec F S103 .f32) (main_arg12 : FVec F S128x119 .f32) (main_arg13 : FVec F S119 .f32) (main_arg14 : FVec F S128x11 .f32) (main_arg15 : FVec F S11 .f32) (main_v48 : IVec S_ 1) (main_v49 : FVec F S128x103 .f32) (main_v50 : FVec F S128x103 .f32) : IVec S_ 1 :=
  let main_v51 : IVec S128x103 1 := cmpf .olt main_v49 main_v50
  let main_c_19 : IVec S_ 1 := constantI S_ 1 1#1
  let main_v52 : IVec S_ 1 := (fun x v => Host.reduce IntOp.andi x v reducesTo_S128x103_S_d0_1 h_S_) main_v51 main_c_19
  let main_v53 : IVec S_ 1 := andi main_v48 main_v52
  let main_v54 : FVec F S103 .f32 := Host.absf main_arg11
  let main_cst_20 : FVec F S_ .f32 := constant S_ .f32 0x7F800000#32
  let main_v55 : FVec F S103 .f32 := broadcastInDim S103 ![] bcast_S_S103 main_cst_20
  let main_v56 : IVec S103 1 := cmpf .olt main_v54 main_v55
  let main_c_21 : IVec S_ 1 := constantI S_ 1 1#1
  let main_v57 : IVec S_ 1 := (fun x v => Host.reduce IntOp.andi x v reducesTo_S103_S_d0 h_S_) main_v56 main_c_21
  let main_v58 : IVec S_ 1 := andi main_v53 main_v57
  let main_v59 : FVec F S128x119 .f32 := Host.absf main_arg12
  let main_cst_22 : FVec F S_ .f32 := constant S_ .f32 0x7F800000#32
  let main_v60 : FVec F S128x119 .f32 := broadcastInDim S128x119 ![] bcast_S_S128x119 main_cst_22
  let main_v61 : IVec S128x119 1 := cmpf .olt main_v59 main_v60
  let main_c_23 : IVec S_ 1 := constantI S_ 1 1#1
  let main_v62 : IVec S_ 1 := (fun x v => Host.reduce IntOp.andi x v reducesTo_S128x119_S_d0_1 h_S_) main_v61 main_c_23
  let main_v63 : IVec S_ 1 := andi main_v58 main_v62
  let main_v64 : FVec F S119 .f32 := Host.absf main_arg13
  let main_cst_24 : FVec F S_ .f32 := constant S_ .f32 0x7F800000#32
  let main_v65 : FVec F S119 .f32 := broadcastInDim S119 ![] bcast_S_S119 main_cst_24
  let main_v66 : IVec S119 1 := cmpf .olt main_v64 main_v65
  let main_c_25 : IVec S_ 1 := constantI S_ 1 1#1
  let main_v67 : IVec S_ 1 := (fun x v => Host.reduce IntOp.andi x v reducesTo_S119_S_d0 h_S_) main_v66 main_c_25
  fn_part4 (F := F) main_arg14 main_arg15 main_v63 main_v67

def fn_part2 {F : FTy → Type} [FloatOps F] (main_arg7 : FVec F S128 .f32) (main_arg8 : FVec F S3x128x128 .f32) (main_arg9 : FVec F S3x128 .f32) (main_arg10 : FVec F S128x103 .f32) (main_arg11 : FVec F S103 .f32) (main_arg12 : FVec F S128x119 .f32) (main_arg13 : FVec F S119 .f32) (main_arg14 : FVec F S128x11 .f32) (main_arg15 : FVec F S11 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S3x128x128 .f32 := Host.absf main_arg8
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg9
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S128x103 .f32 := Host.absf main_arg10
  let main_cst_18 : FVec F S_ .f32 := constant S_ .f32 0x7F800000#32
  let main_v50 : FVec F S128x103 .f32 := broadcastInDim S128x103 ![] bcast_S_S128x103 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S3x128x128 .f32) (main_arg9 : FVec F S3x128 .f32) (main_arg10 : FVec F S128x103 .f32) (main_arg11 : FVec F S103 .f32) (main_arg12 : FVec F S128x119 .f32) (main_arg13 : FVec F S119 .f32) (main_arg14 : FVec F S128x11 .f32) (main_arg15 : FVec F S11 .f32) (main_v13 : IVec S_ 1) (main_v16 : IVec S3x512 1) : IVec S_ 1 :=
  let main_c_5 : IVec S_ 1 := constantI S_ 1 1#1
  let main_v17 : IVec S_ 1 := (fun x v => Host.reduce IntOp.andi x v reducesTo_S3x512_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S65536x128 .f32) (main_arg1 : FVec F S3x128x512 .f32) (main_arg2 : FVec F S3x128x512 .f32) (main_arg3 : FVec F S3x512 .f32) (main_arg4 : FVec F S128x128 .f32) (main_arg5 : FVec F S128 .f32) (main_arg6 : FVec F S128x128 .f32) (main_arg7 : FVec F S128 .f32) (main_arg8 : FVec F S3x128x128 .f32) (main_arg9 : FVec F S3x128 .f32) (main_arg10 : FVec F S128x103 .f32) (main_arg11 : FVec F S103 .f32) (main_arg12 : FVec F S128x119 .f32) (main_arg13 : FVec F S119 .f32) (main_arg14 : FVec F S128x11 .f32) (main_arg15 : FVec F S11 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S3x128x512 .f32 := Host.absf main_arg1
  let main_cst_0 : FVec F S_ .f32 := constant S_ .f32 0x7F800000#32
  let main_v5 : FVec F S3x128x512 .f32 := broadcastInDim S3x128x512 ![] bcast_S_S3x128x512 main_cst_0
  let main_v6 : IVec S3x128x512 1 := cmpf .olt main_v4 main_v5
  let main_c_1 : IVec S_ 1 := constantI S_ 1 1#1
  let main_v7 : IVec S_ 1 := (fun x v => Host.reduce IntOp.andi x v reducesTo_S3x128x512_S_d0_1_2 h_S_) main_v6 main_c_1
  let main_v8 : IVec S_ 1 := andi main_v3 main_v7
  let main_v9 : FVec F S3x128x512 .f32 := Host.absf main_arg2
  let main_cst_2 : FVec F S_ .f32 := constant S_ .f32 0x7F800000#32
  let main_v10 : FVec F S3x128x512 .f32 := broadcastInDim S3x128x512 ![] bcast_S_S3x128x512 main_cst_2
  let main_v11 : IVec S3x128x512 1 := cmpf .olt main_v9 main_v10
  let main_c_3 : IVec S_ 1 := constantI S_ 1 1#1
  let main_v12 : IVec S_ 1 := (fun x v => Host.reduce IntOp.andi x v reducesTo_S3x128x512_S_d0_1_2 h_S_) main_v11 main_c_3
  let main_v13 : IVec S_ 1 := andi main_v8 main_v12
  let main_v14 : FVec F S3x512 .f32 := Host.absf main_arg3
  let main_cst_4 : FVec F S_ .f32 := constant S_ .f32 0x7F800000#32
  let main_v15 : FVec F S3x512 .f32 := broadcastInDim S3x512 ![] bcast_S_S3x512 main_cst_4
  let main_v16 : IVec S3x512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S65536x128 : Shape := ⟨2, ![65536, 128]⟩
abbrev S3x128x512 : Shape := ⟨3, ![3, 128, 512]⟩
abbrev S3x512 : Shape := ⟨2, ![3, 512]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x103 : Shape := ⟨2, ![128, 103]⟩
abbrev S103 : Shape := ⟨1, ![103]⟩
abbrev S128x119 : Shape := ⟨2, ![128, 119]⟩
abbrev S119 : Shape := ⟨1, ![119]⟩
abbrev S128x11 : Shape := ⟨2, ![128, 11]⟩
abbrev S11 : Shape := ⟨1, ![11]⟩
abbrev S3x256x512 : Shape := ⟨3, ![3, 256, 512]⟩
abbrev S65536x103 : Shape := ⟨2, ![65536, 103]⟩
abbrev S65536x119 : Shape := ⟨2, ![65536, 119]⟩
abbrev S65536x11 : Shape := ⟨2, ![65536, 11]⟩
abbrev S4096x128 : Shape := ⟨2, ![4096, 128]⟩
abbrev S4096x103 : Shape := ⟨2, ![4096, 103]⟩
abbrev S4096x119 : Shape := ⟨2, ![4096, 119]⟩
abbrev S4096x11 : Shape := ⟨2, ![4096, 11]⟩
abbrev S1x256x512 : Shape := ⟨3, ![1, 256, 512]⟩
abbrev S256x512 : Shape := ⟨2, ![256, 512]⟩
abbrev S1x512 : Shape := ⟨2, ![1, 512]⟩
abbrev S512 : Shape := ⟨1, ![512]⟩
abbrev S4096x256 : Shape := ⟨2, ![4096, 256]⟩
abbrev S4096x512 : Shape := ⟨2, ![4096, 512]⟩
abbrev S1x128 : Shape := ⟨2, ![1, 128]⟩
abbrev S1x128x128 : Shape := ⟨3, ![1, 128, 128]⟩
abbrev S1x103 : Shape := ⟨2, ![1, 103]⟩
abbrev S1x119 : Shape := ⟨2, ![1, 119]⟩
abbrev S1x11 : Shape := ⟨2, ![1, 11]⟩

abbrev nBuf : Space → Nat
  | .hbm => 27
  | .vmem => 22
  | .smem => 0
  | _ => 0

abbrev bufTy : (tb : Table) → Fin (tcTables nBuf tb) → BufTy
  | .hbm, ⟨0, _⟩ => ⟨S65536x128, .f32⟩
  | .hbm, ⟨1, _⟩ => ⟨S3x128x512, .f32⟩
  | .hbm, ⟨2, _⟩ => ⟨S3x128x512, .f32⟩
  | .hbm, ⟨3, _⟩ => ⟨S3x512, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S3x128x128, .f32⟩
  | .hbm, ⟨9, _⟩ => ⟨S3x128, .f32⟩
  | .hbm, ⟨10, _⟩ => ⟨S128x103, .f32⟩
  | .hbm, ⟨11, _⟩ => ⟨S103, .f32⟩
  | .hbm, ⟨12, _⟩ => ⟨S128x119, .f32⟩
  | .hbm, ⟨13, _⟩ => ⟨S119, .f32⟩
  | .hbm, ⟨14, _⟩ => ⟨S128x11, .f32⟩
  | .hbm, ⟨15, _⟩ => ⟨S11, .f32⟩
  | .hbm, ⟨16, _⟩ => ⟨S3x256x512, .f32⟩
  | .hbm, ⟨17, _⟩ => ⟨S3x256x512, .bf16⟩
  | .hbm, ⟨18, _⟩ => ⟨S128x128, .bf16⟩
  | .hbm, ⟨19, _⟩ => ⟨S128x128, .bf16⟩
  | .hbm, ⟨20, _⟩ => ⟨S3x128x128, .bf16⟩
  | .hbm, ⟨21, _⟩ => ⟨S128x103, .bf16⟩
  | .hbm, ⟨22, _⟩ => ⟨S128x119, .bf16⟩
  | .hbm, ⟨23, _⟩ => ⟨S128x11, .bf16⟩
  | .hbm, ⟨24, _⟩ => ⟨S65536x103, .f32⟩
  | .hbm, ⟨25, _⟩ => ⟨S65536x119, .f32⟩
  | .hbm, ⟨26, _⟩ => ⟨S65536x11, .f32⟩
  | .local _ .vmem, ⟨0, _⟩ => ⟨S4096x128, .f32⟩
  | .local _ .vmem, ⟨1, _⟩ => ⟨S4096x128, .f32⟩
  | .local _ .vmem, ⟨2, _⟩ => ⟨S3x256x512, .bf16⟩
  | .local _ .vmem, ⟨3, _⟩ => ⟨S3x512, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S3x128x128, .bf16⟩
  | .local _ .vmem, ⟨9, _⟩ => ⟨S3x128, .f32⟩
  | .local _ .vmem, ⟨10, _⟩ => ⟨S128x103, .bf16⟩
  | .local _ .vmem, ⟨11, _⟩ => ⟨S103, .f32⟩
  | .local _ .vmem, ⟨12, _⟩ => ⟨S128x119, .bf16⟩
  | .local _ .vmem, ⟨13, _⟩ => ⟨S119, .f32⟩
  | .local _ .vmem, ⟨14, _⟩ => ⟨S128x11, .bf16⟩
  | .local _ .vmem, ⟨15, _⟩ => ⟨S11, .f32⟩
  | .local _ .vmem, ⟨16, _⟩ => ⟨S4096x103, .f32⟩
  | .local _ .vmem, ⟨17, _⟩ => ⟨S4096x103, .f32⟩
  | .local _ .vmem, ⟨18, _⟩ => ⟨S4096x119, .f32⟩
  | .local _ .vmem, ⟨19, _⟩ => ⟨S4096x119, .f32⟩
  | .local _ .vmem, ⟨20, _⟩ => ⟨S4096x11, .f32⟩
  | .local _ .vmem, ⟨21, _⟩ => ⟨S4096x11, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8_0 : Ref sig .tc := ⟨.hbm, 24, rfl⟩
abbrev main_v8_1 : Ref sig .tc := ⟨.hbm, 25, rfl⟩
abbrev main_v8_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_stg16_0 : Ref sig .tc := ⟨.vmem, 18, rfl⟩
abbrev cc0_stg16_1 : Ref sig .tc := ⟨.vmem, 19, rfl⟩
abbrev cc0_stg17_0 : Ref sig .tc := ⟨.vmem, 20, rfl⟩
abbrev cc0_stg17_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17
abbrev cc0_sem16_0 : DmaSem sig := 18
abbrev cc0_sem16_1 : DmaSem sig := 19
abbrev cc0_sem17_0 : DmaSem sig := 20
abbrev cc0_sem17_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x103 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S103 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x119 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S119 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x11 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S11 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4096x103 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4096x119 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4096x11 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  concatenates_S3x128x512_S3x128x512_S3x256x512_d1 : Shape.Concatenates [S3x128x512, S3x128x512] S3x256x512 1
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S3x256x512_S1x256x512_0_0_0 : ∀ a, (![0, 0, 0] : Fin 3 → Nat) a + S1x256x512.size a ≤ S3x256x512.size a
  h_S1x256x512 : 0 < S1x256x512.numel
  shapeCasts_S1x256x512_S256x512 : S1x256x512.ShapeCasts S256x512
  inb_S3x512_S1x512_0_0 : ∀ a, (![0, 0] : Fin 2 → Nat) a + S1x512.size a ≤ S3x512.size a
  h_S1x512 : 0 < S1x512.numel
  shapeCasts_S1x512_S512 : S1x512.ShapeCasts S512
  concatenates_S4096x128_S4096x128_S4096x256_d1 : Shape.Concatenates [S4096x128, S4096x128] S4096x256 1
  shapeCasts_S512_S1x512 : S512.ShapeCasts S1x512
  broadcasts_S1x512_S4096x512 : S1x512.Broadcasts S4096x512
  slices_S4096x512_o0_0_S4096x128 : S4096x512.Slices ![0, 0] S4096x128
  slices_S4096x512_o0_128_S4096x128 : S4096x512.Slices ![0, 128] S4096x128
  slices_S4096x512_o0_256_S4096x128 : S4096x512.Slices ![0, 256] S4096x128
  slices_S4096x512_o0_384_S4096x128 : S4096x512.Slices ![0, 384] S4096x128
  inb_S3x256x512_S1x256x512_1_0_0 : ∀ a, (![1, 0, 0] : Fin 3 → Nat) a + S1x256x512.size a ≤ S3x256x512.size a
  inb_S3x512_S1x512_1_0 : ∀ a, (![1, 0] : Fin 2 → Nat) a + S1x512.size a ≤ S3x512.size a
  shapeCasts_S128_S1x128 : S128.ShapeCasts S1x128
  broadcasts_S1x128_S4096x128 : S1x128.Broadcasts S4096x128
  inb_S3x256x512_S1x256x512_2_0_0 : ∀ a, (![2, 0, 0] : Fin 3 → Nat) a + S1x256x512.size a ≤ S3x256x512.size a
  inb_S3x512_S1x512_2_0 : ∀ a, (![2, 0] : Fin 2 → Nat) a + S1x512.size a ≤ S3x512.size a
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128_S1x128_0_0 : ∀ a, (![0, 0] : Fin 2 → Nat) a + S1x128.size a ≤ S3x128.size a
  h_S1x128 : 0 < S1x128.numel
  shapeCasts_S1x128_S128 : S1x128.ShapeCasts S128
  inb_S128x103_S128x103_0_0 : ∀ a, (![0, 0] : Fin 2 → Nat) a + S128x103.size a ≤ S128x103.size a
  h_S128x103 : 0 < S128x103.numel
  shapeCasts_S128x103_S128x103 : S128x103.ShapeCasts S128x103
  inb_S103_S103_0 : ∀ a, (![0] : Fin 1 → Nat) a + S103.size a ≤ S103.size a
  h_S103 : 0 < S103.numel
  shapeCasts_S103_S1x103 : S103.ShapeCasts S1x103
  broadcasts_S1x103_S4096x103 : S1x103.Broadcasts S4096x103
  inb_S3x128x128_S1x128x128_1_0_0 : ∀ a, (![1, 0, 0] : Fin 3 → Nat) a + S1x128x128.size a ≤ S3x128x128.size a
  inb_S3x128_S1x128_1_0 : ∀ a, (![1, 0] : Fin 2 → Nat) a + S1x128.size a ≤ S3x128.size a
  inb_S128x119_S128x119_0_0 : ∀ a, (![0, 0] : Fin 2 → Nat) a + S128x119.size a ≤ S128x119.size a
  h_S128x119 : 0 < S128x119.numel
  shapeCasts_S128x119_S128x119 : S128x119.ShapeCasts S128x119
  inb_S119_S119_0 : ∀ a, (![0] : Fin 1 → Nat) a + S119.size a ≤ S119.size a
  h_S119 : 0 < S119.numel
  shapeCasts_S119_S1x119 : S119.ShapeCasts S1x119
  broadcasts_S1x119_S4096x119 : S1x119.Broadcasts S4096x119
  inb_S3x128x128_S1x128x128_2_0_0 : ∀ a, (![2, 0, 0] : Fin 3 → Nat) a + S1x128x128.size a ≤ S3x128x128.size a
  inb_S3x128_S1x128_2_0 : ∀ a, (![2, 0] : Fin 2 → Nat) a + S1x128.size a ≤ S3x128.size a
  inb_S128x11_S128x11_0_0 : ∀ a, (![0, 0] : Fin 2 → Nat) a + S128x11.size a ≤ S128x11.size a
  h_S128x11 : 0 < S128x11.numel
  shapeCasts_S128x11_S128x11 : S128x11.ShapeCasts S128x11
  inb_S11_S11_0 : ∀ a, (![0] : Fin 1 → Nat) a + S11.size a ≤ S11.size a
  h_S11 : 0 < S11.numel
  shapeCasts_S11_S1x11 : S11.ShapeCasts S1x11
  broadcasts_S1x11_S4096x11 : S1x11.Broadcasts S4096x11
  inb_S4096x103_S4096x103_0_0 : ∀ a, (![0, 0] : Fin 2 → Nat) a + S4096x103.size a ≤ S4096x103.size a
  h_S4096x103 : 0 < S4096x103.numel
  inb_S4096x119_S4096x119_0_0 : ∀ a, (![0, 0] : Fin 2 → Nat) a + S4096x119.size a ≤ S4096x119.size a
  h_S4096x119 : 0 < S4096x119.numel
  inb_S4096x11_S4096x11_0_0 : ∀ a, (![0, 0] : Fin 2 → Nat) a + S4096x11.size a ≤ S4096x11.size a
  h_S4096x11 : 0 < S4096x11.numel
  dot_S4096x256_S256x512_S4096x512_1_0_0_1_n_n_wf : DotDims.WF S4096x256 S256x512 S4096x512 [1] [0] [0] [1] [] []
  dot_S4096x128_S128x128_S4096x128_1_0_0_1_n_n_wf : DotDims.WF S4096x128 S128x128 S4096x128 [1] [0] [0] [1] [] []
  dot_S4096x128_S128x103_S4096x103_1_0_0_1_n_n_wf : DotDims.WF S4096x128 S128x103 S4096x103 [1] [0] [0] [1] [] []
  dot_S4096x128_S128x119_S4096x119_1_0_0_1_n_n_wf : DotDims.WF S4096x128 S128x119 S4096x119 [1] [0] [0] [1] [] []
  dot_S4096x128_S128x11_S4096x11_1_0_0_1_n_n_wf : DotDims.WF S4096x128 S128x11 S4096x11 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S65536x128.size a
  hwx0_0 : ∀ i : grid0.Coords, EltTy.bits .f32 = 32 ∨ (Rect.block (s := S65536x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x256x512.size a ≤ S3x256x512.size a
  hwx0_1 : ∀ i : grid0.Coords, EltTy.bits .bf16 = 32 ∨ (Rect.block (s := S3x256x512) S3x256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x512.size a ≤ S3x512.size a
  hwx0_2 : ∀ i : grid0.Coords, EltTy.bits .f32 = 32 ∨ (Rect.block (s := S3x512) S3x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x128x128.size a ≤ S3x128x128.size a
  hwx0_7 : ∀ i : grid0.Coords, EltTy.bits .bf16 = 32 ∨ (Rect.block (s := S3x128x128) S3x128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x128.size a ≤ S3x128.size a
  hwx0_8 : ∀ i : grid0.Coords, EltTy.bits .f32 = 32 ∨ (Rect.block (s := S3x128) S3x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x103.size a ≤ S128x103.size a
  hwx0_9 : ∀ i : grid0.Coords, EltTy.bits .bf16 = 32 ∨ (Rect.block (s := S128x103) S128x103.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S103.size a ≤ S103.size a
  hwx0_10 : ∀ i : grid0.Coords, EltTy.bits .f32 = 32 ∨ (Rect.block (s := S103) S103.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x119.size a ≤ S128x119.size a
  hwx0_11 : ∀ i : grid0.Coords, EltTy.bits .bf16 = 32 ∨ (Rect.block (s := S128x119) S128x119.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S119.size a ≤ S119.size a
  hwx0_12 : ∀ i : grid0.Coords, EltTy.bits .f32 = 32 ∨ (Rect.block (s := S119) S119.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x11.size a ≤ S128x11.size a
  hwx0_13 : ∀ i : grid0.Coords, EltTy.bits .bf16 = 32 ∨ (Rect.block (s := S128x11) S128x11.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S11.size a ≤ S11.size a
  hwx0_14 : ∀ i : grid0.Coords, EltTy.bits .f32 = 32 ∨ (Rect.block (s := S11) S11.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S4096x103.size a ≤ S65536x103.size a
  hwx0_15 : ∀ i : grid0.Coords, EltTy.bits .f32 = 32 ∨ (Rect.block (s := S65536x103) S4096x103.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4096x119.size a ≤ S65536x119.size a
  hwx0_16 : ∀ i : grid0.Coords, EltTy.bits .f32 = 32 ∨ (Rect.block (s := S65536x119) S4096x119.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4096x11.size a ≤ S65536x11.size a
  hwx0_17 : ∀ i : grid0.Coords, EltTy.bits .f32 = 32 ∨ (Rect.block (s := S65536x11) S4096x11.size (cc0_transform_17 i) (hinb0_17 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x103_S4096x103_1_0_0_1_n_n : DotDims S4096x128 S128x103 S4096x103 where
  lhsContracting := [1]
  rhsContracting := [0]
  lhsNonContracting := [0]
  rhsNonContracting := [1]
  lhsBatch := []
  rhsBatch := []
  wf := dot_S4096x128_S128x103_S4096x103_1_0_0_1_n_n_wf
def dot_S4096x128_S128x119_S4096x119_1_0_0_1_n_n : DotDims S4096x128 S128x119 S4096x119 where
  lhsContracting := [1]
  rhsContracting := [0]
  lhsNonContracting := [0]
  rhsNonContracting := [1]
  lhsBatch := []
  rhsBatch := []
  wf := dot_S4096x128_S128x119_S4096x119_1_0_0_1_n_n_wf
def dot_S4096x128_S128x11_S4096x11_1_0_0_1_n_n : DotDims S4096x128 S128x11 S4096x11 where
  lhsContracting := [1]
  rhsContracting := [0]
  lhsNonContracting := [0]
  rhsNonContracting := [1]
  lhsBatch := []
  rhsBatch := []
  wf := dot_S4096x128_S128x11_S4096x11_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S3x128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S128x103.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S103.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S128x119.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S119.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S128x11.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg15) S11.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v8_0) S4096x103.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v8_1) S4096x119.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v8_2) S4096x11.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S65536x128 : Shape := ⟨2, ![65536, 128]⟩
abbrev S3x128x512 : Shape := ⟨3, ![3, 128, 512]⟩
abbrev S3x512 : Shape := ⟨2, ![3, 512]⟩
abbrev S128x128 : Shape := ⟨2, ![128, 128]⟩
abbrev S128 : Shape := ⟨1, ![128]⟩
abbrev S3x128x128 : Shape := ⟨3, ![3, 128, 128]⟩
abbrev S3x128 : Shape := ⟨2, ![3, 128]⟩
abbrev S128x103 : Shape := ⟨2, ![128, 103]⟩
abbrev S103 : Shape := ⟨1, ![103]⟩
abbrev S128x119 : Shape := ⟨2, ![128, 119]⟩
abbrev S119 : Shape := ⟨1, ![119]⟩
abbrev S128x11 : Shape := ⟨2, ![128, 11]⟩
abbrev S11 : Shape := ⟨1, ![11]⟩
abbrev S_ : Shape := ⟨0, ![]⟩
abbrev S1x128x512 : Shape := ⟨3, ![1, 128, 512]⟩
abbrev S128x512 : Shape := ⟨2, ![128, 512]⟩
abbrev S1x512 : Shape := ⟨2, ![1, 512]⟩
abbrev S512 : Shape := ⟨1, ![512]⟩
abbrev S65536x512 : Shape := ⟨2, ![65536, 512]⟩
abbrev S1x128 : Shape := ⟨2, ![1, 128]⟩
abbrev S1x128x128 : Shape := ⟨3, ![1, 128, 128]⟩
abbrev S65536x103 : Shape := ⟨2, ![65536, 103]⟩
abbrev S1x103 : Shape := ⟨2, ![1, 103]⟩
abbrev S65536x119 : Shape := ⟨2, ![65536, 119]⟩
abbrev S1x119 : Shape := ⟨2, ![1, 119]⟩
abbrev S65536x11 : Shape := ⟨2, ![65536, 11]⟩
abbrev S1x11 : Shape := ⟨2, ![1, 11]⟩

abbrev nBuf : Space → Nat
  | .hbm => 211
  | .vmem => 0
  | .smem => 0
  | _ => 0

abbrev hbmTy0_0 (i : Nat) : BufTy := match i % 128 with
  | 0 => ⟨S65536x128, .f32⟩
  | 1 => ⟨S3x128x512, .f32⟩
  | 2 => ⟨S3x128x512, .f32⟩
  | 3 => ⟨S3x512, .f32⟩
  | 4 => ⟨S128x128, .f32⟩
  | 5 => ⟨S128, .f32⟩
  | 6 => ⟨S128x128, .f32⟩
  | 7 => ⟨S128, .f32⟩
  | 8 => ⟨S3x128x128, .f32⟩
  | 9 => ⟨S3x128, .f32⟩
  | 10 => ⟨S128x103, .f32⟩
  | 11 => ⟨S103, .f32⟩
  | 12 => ⟨S128x119, .f32⟩
  | 13 => ⟨S119, .f32⟩
  | 14 => ⟨S128x11, .f32⟩
  | 15 => ⟨S11, .f32⟩
  | 16 => ⟨S_, .f32⟩
  | 17 => ⟨S65536x128, .f32⟩
  | 18 => ⟨S1x128x512, .f32⟩
  | 19 => ⟨S128x512, .f32⟩
  | 20 => ⟨S1x128x512, .f32⟩
  | 21 => ⟨S128x512, .f32⟩
  | 22 => ⟨S1x512, .f32⟩
  | 23 => ⟨S512, .f32⟩
  | 24 => ⟨S65536x512, .f32⟩
  | 25 => ⟨S65536x512, .f32⟩
  | 26 => ⟨S65536x512, .f32⟩
  | 27 => ⟨S1x512, .f32⟩
  | 28 => ⟨S65536x512, .f32⟩
  | 29 => ⟨S65536x512, .f32⟩
  | 30 => ⟨S65536x128, .f32⟩
  | 31 => ⟨S65536x128, .f32⟩
  | 32 => ⟨S65536x128, .f32⟩
  | 33 => ⟨S65536x128, .f32⟩
  | 34 => ⟨S65536x128, .f32⟩
  | 35 => ⟨S65536x128, .f32⟩
  | 36 => ⟨S_, .f32⟩
  | 37 => ⟨S65536x128, .f32⟩
  | 38 => ⟨S65536x128, .f32⟩
  | 39 => ⟨S_, .f32⟩
  | 40 => ⟨S65536x128, .f32⟩
  | 41 => ⟨S65536x128, .f32⟩
  | 42 => ⟨S65536x128, .f32⟩
  | 43 => ⟨S65536x128, .f32⟩
  | 44 => ⟨S65536x128, .f32⟩
  | 45 => ⟨S_, .f32⟩
  | 46 => ⟨S65536x128, .f32⟩
  | 47 => ⟨S65536x128, .f32⟩
  | 48 => ⟨S_, .f32⟩
  | 49 => ⟨S65536x128, .f32⟩
  | 50 => ⟨S65536x128, .f32⟩
  | 51 => ⟨S65536x128, .f32⟩
  | 52 => ⟨S65536x128, .f32⟩
  | 53 => ⟨S65536x128, .f32⟩
  | 54 => ⟨S65536x128, .f32⟩
  | 55 => ⟨S65536x128, .f32⟩
  | 56 => ⟨S_, .f32⟩
  | 57 => ⟨S65536x128, .f32⟩
  | 58 => ⟨S65536x128, .f32⟩
  | 59 => ⟨S_, .f32⟩
  | 60 => ⟨S65536x128, .f32⟩
  | 61 => ⟨S65536x128, .f32⟩
  | 62 => ⟨S65536x128, .f32⟩
  | 63 => ⟨S65536x128, .f32⟩
  | 64 => ⟨S1x128x512, .f32⟩
  | 65 => ⟨S128x512, .f32⟩
  | 66 => ⟨S1x128x512, .f32⟩
  | 67 => ⟨S128x512, .f32⟩
  | 68 => ⟨S1x512, .f32⟩
  | 69 => ⟨S512, .f32⟩
  | 70 => ⟨S65536x512, .f32⟩
  | 71 => ⟨S65536x512, .f32⟩
  | 72 => ⟨S65536x512, .f32⟩
  | 73 => ⟨S1x512, .f32⟩
  | 74 => ⟨S65536x512, .f32⟩
  | 75 => ⟨S65536x512, .f32⟩
  | 76 => ⟨S65536x128, .f32⟩
  | 77 => ⟨S65536x128, .f32⟩
  | 78 => ⟨S65536x128, .f32⟩
  | 79 => ⟨S65536x128, .f32⟩
  | 80 => ⟨S65536x128, .f32⟩
  | 81 => ⟨S65536x128, .f32⟩
  | 82 => ⟨S_, .f32⟩
  | 83 => ⟨S65536x128, .f32⟩
  | 84 => ⟨S65536x128, .f32⟩
  | 85 => ⟨S_, .f32⟩
  | 86 => ⟨S65536x128, .f32⟩
  | 87 => ⟨S65536x128, .f32⟩
  | 88 => ⟨S65536x128, .f32⟩
  | 89 => ⟨S65536x128, .f32⟩
  | 90 => ⟨S65536x128, .f32⟩
  | 91 => ⟨S_, .f32⟩
  | 92 => ⟨S65536x128, .f32⟩
  | 93 => ⟨S65536x128, .f32⟩
  | 94 => ⟨S_, .f32⟩
  | 95 => ⟨S65536x128, .f32⟩
  | 96 => ⟨S65536x128, .f32⟩
  | 97 => ⟨S65536x128, .f32⟩
  | 98 => ⟨S65536x128, .f32⟩
  | 99 => ⟨S65536x128, .f32⟩
  | 100 => ⟨S65536x128, .f32⟩
  | 101 => ⟨S65536x128, .f32⟩
  | 102 => ⟨S_, .f32⟩
  | 103 => ⟨S65536x128, .f32⟩
  | 104 => ⟨S65536x128, .f32⟩
  | 105 => ⟨S_, .f32⟩
  | 106 => ⟨S65536x128, .f32⟩
  | 107 => ⟨S65536x128, .f32⟩
  | 108 => ⟨S65536x128, .f32⟩
  | 109 => ⟨S65536x128, .f32⟩
  | 110 => ⟨S65536x128, .f32⟩
  | 111 => ⟨S65536x128, .f32⟩
  | 112 => ⟨S1x128, .f32⟩
  | 113 => ⟨S65536x128, .f32⟩
  | 114 => ⟨S65536x128, .f32⟩
  | 115 => ⟨S65536x128, .f32⟩
  | 116 => ⟨S65536x128, .f32⟩
  | 117 => ⟨S1x128, .f32⟩
  | 118 => ⟨S65536x128, .f32⟩
  | 119 => ⟨S65536x128, .f32⟩
  | 120 => ⟨S1x128x512, .f32⟩
  | 121 => ⟨S128x512, .f32⟩
  | 122 => ⟨S1x128x512, .f32⟩
  | 123 => ⟨S128x512, .f32⟩
  | 124 => ⟨S1x512, .f32⟩
  | 125 => ⟨S512, .f32⟩
  | 126 => ⟨S65536x512, .f32⟩
  | 127 => ⟨S65536x512, .f32⟩
  | _ => ⟨S65536x128, .f32⟩

abbrev hbmTy0_1 (i : Nat) : BufTy := match i % 128 with
  | 0 => ⟨S65536x512, .f32⟩
  | 1 => ⟨S1x512, .f32⟩
  | 2 => ⟨S65536x512, .f32⟩
  | 3 => ⟨S65536x512, .f32⟩
  | 4 => ⟨S65536x128, .f32⟩
  | 5 => ⟨S65536x128, .f32⟩
  | 6 => ⟨S65536x128, .f32⟩
  | 7 => ⟨S65536x128, .f32⟩
  | 8 => ⟨S65536x128, .f32⟩
  | 9 => ⟨S65536x128, .f32⟩
  | 10 => ⟨S_, .f32⟩
  | 11 => ⟨S65536x128, .f32⟩
  | 12 => ⟨S65536x128, .f32⟩
  | 13 => ⟨S_, .f32⟩
  | 14 => ⟨S65536x128, .f32⟩
  | 15 => ⟨S65536x128, .f32⟩
  | 16 => ⟨S65536x128, .f32⟩
  | 17 => ⟨S65536x128, .f32⟩
  | 18 => ⟨S65536x128, .f32⟩
  | 19 => ⟨S_, .f32⟩
  | 20 => ⟨S65536x128, .f32⟩
  | 21 => ⟨S65536x128, .f32⟩
  | 22 => ⟨S_, .f32⟩
  | 23 => ⟨S65536x128, .f32⟩
  | 24 => ⟨S65536x128, .f32⟩
  | 25 => ⟨S65536x128, .f32⟩
  | 26 => ⟨S65536x128, .f32⟩
  | 27 => ⟨S65536x128, .f32⟩
  | 28 => ⟨S65536x128, .f32⟩
  | 29 => ⟨S65536x128, .f32⟩
  | 30 => ⟨S_, .f32⟩
  | 31 => ⟨S65536x128, .f32⟩
  | 32 => ⟨S65536x128, .f32⟩
  | 33 => ⟨S_, .f32⟩
  | 34 => ⟨S65536x128, .f32⟩
  | 35 => ⟨S65536x128, .f32⟩
  | 36 => ⟨S65536x128, .f32⟩
  | 37 => ⟨S65536x128, .f32⟩
  | 38 => ⟨S1x128x128, .f32⟩
  | 39 => ⟨S128x128, .f32⟩
  | 40 => ⟨S65536x128, .f32⟩
  | 41 => ⟨S1x128, .f32⟩
  | 42 => ⟨S128, .f32⟩
  | 43 => ⟨S1x128, .f32⟩
  | 44 => ⟨S65536x128, .f32⟩
  | 45 => ⟨S65536x128, .f32⟩
  | 46 => ⟨S_, .f32⟩
  | 47 => ⟨S65536x128, .f32⟩
  | 48 => ⟨S65536x128, .f32⟩
  | 49 => ⟨S65536x103, .f32⟩
  | 50 => ⟨S1x103, .f32⟩
  | 51 => ⟨S65536x103, .f32⟩
  | 52 => ⟨S65536x103, .f32⟩
  | 53 => ⟨S1x128x128, .f32⟩
  | 54 => ⟨S128x128, .f32⟩
  | 55 => ⟨S65536x128, .f32⟩
  | 56 => ⟨S1x128, .f32⟩
  | 57 => ⟨S128, .f32⟩
  | 58 => ⟨S1x128, .f32⟩
  | 59 => ⟨S65536x128, .f32⟩
  | 60 => ⟨S65536x128, .f32⟩
  | 61 => ⟨S_, .f32⟩
  | 62 => ⟨S65536x128, .f32⟩
  | 63 => ⟨S65536x128, .f32⟩
  | 64 => ⟨S65536x119, .f32⟩
  | 65 => ⟨S1x119, .f32⟩
  | 66 => ⟨S65536x119, .f32⟩
  | 67 => ⟨S65536x119, .f32⟩
  | 68 => ⟨S1x128x128, .f32⟩
  | 69 => ⟨S128x128, .f32⟩
  | 70 => ⟨S65536x128, .f32⟩
  | 71 => ⟨S1x128, .f32⟩
  | 72 => ⟨S128, .f32⟩
  | 73 => ⟨S1x128, .f32⟩
  | 74 => ⟨S65536x128, .f32⟩
  | 75 => ⟨S65536x128, .f32⟩
  | 76 => ⟨S_, .f32⟩
  | 77 => ⟨S65536x128, .f32⟩
  | 78 => ⟨S65536x128, .f32⟩
  | 79 => ⟨S65536x11, .f32⟩
  | 80 => ⟨S1x11, .f32⟩
  | 81 => ⟨S65536x11, .f32⟩
  | 82 => ⟨S65536x11, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_0 : Ref sig .tc := ⟨.hbm, 36, rfl⟩
abbrev main_v19 : Ref sig .tc := ⟨.hbm, 37, rfl⟩
abbrev main_v20 : Ref sig .tc := ⟨.hbm, 38, rfl⟩
abbrev main_cst_1 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_2 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_4 : Ref sig .tc := ⟨.hbm, 56, rfl⟩
abbrev main_v35 : Ref sig .tc := ⟨.hbm, 57, rfl⟩
abbrev main_v36 : Ref sig .tc := ⟨.hbm, 58, rfl⟩
abbrev main_cst_5 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_6 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_8 : Ref sig .tc := ⟨.hbm, 91, rfl⟩
abbrev main_v66 : Ref sig .tc := ⟨.hbm, 92, rfl⟩
abbrev main_v67 : Ref sig .tc := ⟨.hbm, 93, rfl⟩
abbrev main_cst_9 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_10 : Ref sig .tc := ⟨.hbm, 102, rfl⟩
abbrev main_v75 : Ref sig .tc := ⟨.hbm, 103, rfl⟩
abbrev main_v76 : Ref sig .tc := ⟨.hbm, 104, rfl⟩
abbrev main_cst_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_cst_12 : Ref sig .tc := ⟨.hbm, 138, rfl⟩
abbrev main_v109 : Ref sig .tc := ⟨.hbm, 139, rfl⟩
abbrev main_v110 : Ref sig .tc := ⟨.hbm, 140, rfl⟩
abbrev main_cst_13 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_14 : Ref sig .tc := ⟨.hbm, 147, rfl⟩
abbrev main_v116 : Ref sig .tc := ⟨.hbm, 148, rfl⟩
abbrev main_v117 : Ref sig .tc := ⟨.hbm, 149, rfl⟩
abbrev main_cst_15 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_cst_16 : Ref sig .tc := ⟨.hbm, 158, rfl⟩
abbrev main_v125 : Ref sig .tc := ⟨.hbm, 159, rfl⟩
abbrev main_v126 : Ref sig .tc := ⟨.hbm, 160, rfl⟩
abbrev main_cst_17 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_call0_cst : Ref sig .tc := ⟨.hbm, 174, rfl⟩
abbrev main_call0_v0 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_call1_cst : Ref sig .tc := ⟨.hbm, 189, rfl⟩
abbrev main_call1_v0 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_call2_cst : Ref sig .tc := ⟨.hbm, 204, rfl⟩
abbrev main_call2_v0 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩

abbrev nD : Nat := 1
abbrev τ : Topo := Topo.v7x

variable {F : FTy → Type} [FloatOps F]

class Facts₀ : Prop where
  bcast_S_S65536x128 : S_.BroadcastsInDim S65536x128 (![] : Fin 0 → Fin S65536x128.rank)
  slices_S3x128x512_S1x128x512_0_0_0 : S3x128x512.Slices ![0, 0, 0] S1x128x512
  shapeCasts_S1x128x512_S128x512 : S1x128x512.ShapeCasts S128x512
  slices_S3x512_S1x512_0_0 : S3x512.Slices ![0, 0] S1x512
  shapeCasts_S1x512_S512 : S1x512.ShapeCasts S512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  slices_S65536x512_S65536x128_0_0 : S65536x512.Slices ![0, 0] S65536x128
  slices_S65536x512_S65536x128_0_128 : S65536x512.Slices ![0, 128] S65536x128
  slices_S65536x512_S65536x128_0_256 : S65536x512.Slices ![0, 256] S65536x128
  slices_S65536x512_S65536x128_0_384 : S65536x512.Slices ![0, 384] S65536x128
  slices_S3x128x512_S1x128x512_1_0_0 : S3x128x512.Slices ![1, 0, 0] S1x128x512
  slices_S3x512_S1x512_1_0 : S3x512.Slices ![1, 0] S1x512
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  slices_S3x128x512_S1x128x512_2_0_0 : S3x128x512.Slices ![2, 0, 0] S1x128x512
  slices_S3x512_S1x512_2_0 : S3x512.Slices ![2, 0] S1x512
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S103_S1x103_1 : S103.BroadcastsInDim S1x103 (![1] : Fin 1 → Fin S1x103.rank)
  bcast_S1x103_S65536x103_0_1 : S1x103.BroadcastsInDim S65536x103 (![0, 1] : Fin 2 → Fin S65536x103.rank)
  slices_S3x128x128_S1x128x128_1_0_0 : S3x128x128.Slices ![1, 0, 0] S1x128x128
  slices_S3x128_S1x128_1_0 : S3x128.Slices ![1, 0] S1x128
  bcast_S119_S1x119_1 : S119.BroadcastsInDim S1x119 (![1] : Fin 1 → Fin S1x119.rank)
  bcast_S1x119_S65536x119_0_1 : S1x119.BroadcastsInDim S65536x119 (![0, 1] : Fin 2 → Fin S65536x119.rank)
  slices_S3x128x128_S1x128x128_2_0_0 : S3x128x128.Slices ![2, 0, 0] S1x128x128
  slices_S3x128_S1x128_2_0 : S3x128.Slices ![2, 0] S1x128
  bcast_S11_S1x11_1 : S11.BroadcastsInDim S1x11 (![1] : Fin 1 → Fin S1x11.rank)
  bcast_S1x11_S65536x11_0_1 : S1x11.BroadcastsInDim S65536x11 (![0, 1] : Fin 2 → Fin S65536x11.rank)
  dot_S65536x128_S128x512_S65536x512_1_0_0_1_n_n_wf : DotDims.WF S65536x128 S128x512 S65536x512 [1] [0] [0] [1] [] []
  dot_S65536x128_S128x128_S65536x128_1_0_0_1_n_n_wf : DotDims.WF S65536x128 S128x128 S65536x128 [1] [0] [0] [1] [] []
  dot_S65536x128_S128x103_S65536x103_1_0_0_1_n_n_wf : DotDims.WF S65536x128 S128x103 S65536x103 [1] [0] [0] [1] [] []
  dot_S65536x128_S128x119_S65536x119_1_0_0_1_n_n_wf : DotDims.WF S65536x128 S128x119 S65536x119 [1] [0] [0] [1] [] []
  dot_S65536x128_S128x11_S65536x11_1_0_0_1_n_n_wf : DotDims.WF S65536x128 S128x11 S65536x11 [1] [0] [0] [1] [] []

variable [Facts₀]

def dot_S65536x128_S128x512_S65536x512_1_0_0_1_n_n : DotDims S65536x128 S128x512 S65536x512 where
  lhsContracting := [1]
  rhsContracting := [0]
  lhsNonContracting := [0]
  rhsNonContracting := [1]
  lhsBatch := []
  rhsBatch := []
  wf := dot_S65536x128_S128x512_S65536x512_1_0_0_1_n_n_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x128_S128x103_S65536x103_1_0_0_1_n_n : DotDims S65536x128 S128x103 S65536x103 where
  lhsContracting := [1]
  rhsContracting := [0]
  lhsNonContracting := [0]
  rhsNonContracting := [1]
  lhsBatch := []
  rhsBatch := []
  wf := dot_S65536x128_S128x103_S65536x103_1_0_0_1_n_n_wf
def dot_S65536x128_S128x119_S65536x119_1_0_0_1_n_n : DotDims S65536x128 S128x119 S65536x119 where
  lhsContracting := [1]
  rhsContracting := [0]
  lhsNonContracting := [0]
  rhsNonContracting := [1]
  lhsBatch := []
  rhsBatch := []
  wf := dot_S65536x128_S128x119_S65536x119_1_0_0_1_n_n_wf
def dot_S65536x128_S128x11_S65536x11_1_0_0_1_n_n : DotDims S65536x128 S128x11 S65536x11 where
  lhsContracting := [1]
  rhsContracting := [0]
  lhsNonContracting := [0]
  rhsNonContracting := [1]
  lhsBatch := []
  rhsBatch := []
  wf := dot_S65536x128_S128x11_S65536x11_1_0_0_1_n_n_wf

class Facts : Prop extends Facts₀ where

variable [Facts]
-- ==== Proof.DecoderRow.lean ====
/-
  One row of the decoder, over the extended reals.

  A row x of width 128 passes through three gated cells and three two-layer heads.  A cell takes x, a hidden row h and
  a carried row c, forms the 512 pre-activations z = x·Wx + h·Wh + b, cuts them into four gates of width 128 and returns
  the new carried row  c' = σ(z₁)·c + σ(z₀)·tanh(z₂)  and the new hidden row  h' = σ(z₃)·tanh(c'),  where
  σ t = 1 / (1 + e⁻ᵗ).  The first cell starts from zero rows; the second from the first cell's rows; the third from
  h₁ + h₂·U + u and c₁ + c₂·V + v.  A head maps a hidden row h to  max(h·M + m, 0)·O + o.

  The pre-activations can also be formed as ONE product of the row (x, h) of width 256 with the weights stacked
  (Wx on top of Wh): a sum over 256 positions is the sum over the first 128 plus the sum over the last 128, in any
  commutative monoid, so no finiteness is involved.
-/
import Idealize.ShloMosaic.PureOps.Ideal
import Idealize.ShloMosaic.PureOps.IdealRules
import Idealize.ShloMosaic.Lib.ValueIdx

noncomputable section

open scoped BigOperators

namespace Cert.DecoderRow

open Idealize.ShloMosaic Idealize.ShloMosaic.ValueIdx

/-- The number both programs write for zero (the same word on both sides; it is never evaluated). -/
abbrev zeroWord : EReal := Ideal.ofBits .f32 0x00000000#32

/-- Position q of the gate that starts at column o of the 512 pre-activations. -/
def gate (o : ℕ) (ho : o + 128 ≤ 512) (q : Fin 128) : Fin 512 := ⟨o + q.val, by have := q.isLt; omega⟩

/-- Position k of the first half of a row of width 256. -/
def lo (k : Fin 128) : Fin 256 := ⟨k.val, by have := k.isLt; omega⟩
/-- Position k of the second half of a row of width 256. -/
def hi (k : Fin 128) : Fin 256 := ⟨128 + k.val, by have := k.isLt; omega⟩

/-- The pre-activations x·Wx + h·Wh + b of a cell. -/
def pre (x h : Fin 128 → EReal) (Wx Wh : Fin 128 → Fin 512 → EReal) (b : Fin 512 → EReal) (j : Fin 512) : EReal :=
  ((∑ k, x k * Wx k j) + ∑ k, h k * Wh k j) + b j

/-- The new carried row σ(z₁)·c + σ(z₀)·tanh(z₂). -/
def carry (z : Fin 512 → EReal) (c : Fin 128 → EReal) (q : Fin 128) : EReal :=
  Ideal.logistic (z (gate 128 (by norm_num) q)) * c q
    + Ideal.logistic (z (gate 0 (by norm_num) q)) * Ideal.tanh (z (gate 256 (by norm_num) q))

/-- The new hidden row σ(z₃)·tanh(c'). -/
def hidden (z : Fin 512 → EReal) (c : Fin 128 → EReal) (q : Fin 128) : EReal :=
  Ideal.logistic (z (gate 384 (by norm_num) q)) * Ideal.tanh (carry z c q)

/-- A dense layer v·W + b. -/
def affine {n q : ℕ} (v : Fin n → EReal) (W : Fin n → Fin q → EReal) (b : Fin q → EReal) (j : Fin q) : EReal :=
  (∑ k, v k * W k j) + b j

/-- The state handed to the third cell: s + t·W + b. -/
def fuse (s t : Fin 128 → EReal) (W : Fin 128 → Fin 128 → EReal) (b : Fin 128 → EReal) (j : Fin 128) : EReal :=
  (s j + ∑ k, t k * W k j) + b j

/-- A head: max(h·M + m, 0)·O + o. -/
def head {q : ℕ} (h : Fin 128 → EReal) (M : Fin 128 → Fin 128 → EReal) (m : Fin 128 → EReal)
    (O : Fin 128 → Fin q → EReal) (o : Fin q → EReal) : Fin q → EReal :=
  affine (fun k => max (affine h M m k) zeroWord) O o

/-! ## The stacked product -/

/-- A sum over 256 positions is the sum over the first half plus the sum over the second half. -/
theorem sum_halves (f : Fin 256 → EReal) : ∑ n, f n = (∑ k, f (lo k)) + ∑ k, f (hi k) :=
  Fin.sum_univ_add (a := 128) (b := 128) f

/-- The product of the row (x, h) with the stacked weights, plus b, is the cell's pre-activation. -/
theorem pre_of_stacked (xh : Fin 256 → EReal) (W : Fin 256 → Fin 512 → EReal) (b' : Fin 512 → EReal)
    (x h : Fin 128 → EReal) (Wx Wh : Fin 128 → Fin 512 → EReal) (b : Fin 512 → EReal)
    (hx : ∀ k, xh (lo k) = x k) (hh : ∀ k, xh (hi k) = h k)
    (hWx : ∀ k j, W (lo k) j = Wx k j) (hWh : ∀ k j, W (hi k) j = Wh k j) (hb : ∀ j, b' j = b j) (j : Fin 512) :
    (∑ n, xh n * W n j) + b' j = pre x h Wx Wh b j := by
  unfold pre
  rw [sum_halves]
  simp only [hx, hh, hWx, hWh, hb]

/-! ## σ spelt out -/

/-- The word 0x3F800000 is the number one. -/
theorem one_word : Ideal.ofBits .f32 0x3F800000#32 = 1 := IdealRules.sign_bit.ideal_onePat .f32

/-- 1 / (1 + e⁻ᵗ), with the ones written as that word, is σ t at every extended real. -/
theorem logistic_spelt (t : EReal) :
    Ideal.div (Ideal.ofBits .f32 0x3F800000#32) (Ideal.ofBits .f32 0x3F800000#32 + Ideal.exp (-t)) = Ideal.logistic t := by
  rw [one_word]; rfl

/-! ## The network on one row -/

/-- The parameters, each as a function of its coordinates. -/
structure Params where
  Wx : Fin 3 → Fin 128 → Fin 512 → EReal
  Wh : Fin 3 → Fin 128 → Fin 512 → EReal
  b : Fin 3 → Fin 512 → EReal
  U : Fin 128 → Fin 128 → EReal
  u : Fin 128 → EReal
  V : Fin 128 → Fin 128 → EReal
  v : Fin 128 → EReal
  M : Fin 3 → Fin 128 → Fin 128 → EReal
  m : Fin 3 → Fin 128 → EReal
  O1 : Fin 128 → Fin 103 → EReal
  o1 : Fin 103 → EReal
  O2 : Fin 128 → Fin 119 → EReal
  o2 : Fin 119 → EReal
  O3 : Fin 128 → Fin 11 → EReal
  o3 : Fin 11 → EReal

variable (P : Params) (x : Fin 128 → EReal)

def z1 : Fin 512 → EReal := pre x (fun _ => zeroWord) (P.Wx 0) (P.Wh 0) (P.b 0)
def c1 : Fin 128 → EReal := carry (z1 P x) (fun _ => zeroWord)
def h1 : Fin 128 → EReal := hidden (z1 P x) (fun _ => zeroWord)
def z2 : Fin 512 → EReal := pre x (h1 P x) (P.Wx 1) (P.Wh 1) (P.b 1)
def c2 : Fin 128 → EReal := carry (z2 P x) (c1 P x)
def h2 : Fin 128 → EReal := hidden (z2 P x) (c1 P x)
def h3in : Fin 128 → EReal := fuse (h1 P x) (h2 P x) P.U P.u
def c3in : Fin 128 → EReal := fuse (c1 P x) (c2 P x) P.V P.v
def z3 : Fin 512 → EReal := pre x (h3in P x) (P.Wx 2) (P.Wh 2) (P.b 2)
def h3 : Fin 128 → EReal := hidden (z3 P x) (c3in P x)
def out1 : Fin 103 → EReal := head (h1 P x) (P.M 0) (P.m 0) P.O1 P.o1
def out2 : Fin 119 → EReal := head (h2 P x) (P.M 1) (P.m 1) P.O2 P.o2
def out3 : Fin 11 → EReal := head (h3 P x) (P.M 2) (P.m 2) P.O3 P.o3

/-! ## The parameters read off the argument arrays -/

/-- Each parameter array as a function of its coordinates. -/
def arrayParams (Wx Wh : (⟨3, ![3, 128, 512]⟩ : Shape).Idx → EReal) (b : (⟨2, ![3, 512]⟩ : Shape).Idx → EReal)
    (U : (⟨2, ![128, 128]⟩ : Shape).Idx → EReal) (u : (⟨1, ![128]⟩ : Shape).Idx → EReal)
    (V : (⟨2, ![128, 128]⟩ : Shape).Idx → EReal) (v : (⟨1, ![128]⟩ : Shape).Idx → EReal)
    (M : (⟨3, ![3, 128, 128]⟩ : Shape).Idx → EReal) (m : (⟨2, ![3, 128]⟩ : Shape).Idx → EReal)
    (O1 : (⟨2, ![128, 103]⟩ : Shape).Idx → EReal) (o1 : (⟨1, ![103]⟩ : Shape).Idx → EReal)
    (O2 : (⟨2, ![128, 119]⟩ : Shape).Idx → EReal) (o2 : (⟨1, ![119]⟩ : Shape).Idx → EReal)
    (O3 : (⟨2, ![128, 11]⟩ : Shape).Idx → EReal) (o3 : (⟨1, ![11]⟩ : Shape).Idx → EReal) : Params where
  Wx l k j := Wx (ix3 l k j)
  Wh l k j := Wh (ix3 l k j)
  b l j := b (ix2 l j)
  U k j := U (ix2 k j)
  u j := u (ix1 j)
  V k j := V (ix2 k j)
  v j := v (ix1 j)
  M l k j := M (ix3 l k j)
  m l j := m (ix2 l j)
  O1 k j := O1 (ix2 k j)
  o1 j := o1 (ix1 j)
  O2 k j := O2 (ix2 k j)
  o2 j := o2 (ix1 j)
  O3 k j := O3 (ix2 k j)
  o3 j := o3 (ix1 j)

/-! ## A row function applied to every row of an array -/

/-- Entry (p, q) of the result is f of row p of the array, at q. -/
def onRows {a n q : ℕ} (f : (Fin n → EReal) → Fin q → EReal) (A : (⟨2, ![a, n]⟩ : Shape).Idx → EReal) :
    (⟨2, ![a, q]⟩ : Shape).Idx → EReal :=
  fun i => f (fun k => A (ix2 (i 0) k)) (i 1)

theorem onRows_apply {a n q : ℕ} (f : (Fin n → EReal) → Fin q → EReal) (A : (⟨2, ![a, n]⟩ : Shape).Idx → EReal)
    (p : Fin a) (j : Fin q) : onRows f A (ix2 p j) = f (fun k => A (ix2 p k)) j := rfl

end Cert.DecoderRow

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«147460_j49624052138309_2_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.LibConcatCols.lean ====
/-
  Two arrays with the same rows laid side by side, read at an entry.

  Concatenating `[a, b₁]` and `[a, b₂]` along the columns gives `[a, c]` with `c = b₁ + b₂`. Entry `(p, n)` of the
  result is entry `(p, n)` of the first piece while `n < b₁`, and entry `(p, n - b₁)` of the second piece from
  column `b₁` on. The column is given with an equation (`n = k`, or `n = b₁ + k`) so that a caller whose column is a
  sum or a product of numerals can discharge it by arithmetic.
-/
import Idealize.ShloMosaic.Lib.ValueIdx
import Idealize.ShloMosaic.Lib.Pipeline.Value

noncomputable section

namespace Cert.LibConcatCols

open Idealize.ShloMosaic Idealize.ShloMosaic.ValueIdx

variable {α : Type} {a b₁ b₂ c : ℕ}

/-- A column inside the first piece reads the first piece there. -/
theorem concat_cols_left (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, c]⟩ 1)
    (p : Fin a) (n : Fin c) (k : Fin b₁) (hn : n.val = k.val) :
    concatenate ⟨2, ![a, c]⟩ 1 [⟨⟨2, ![a, b₁]⟩, x₁⟩, ⟨⟨2, ![a, b₂]⟩, x₂⟩] h (ix2 p n) = x₁ (ix2 p k) :=
  concatenate_pair_apply_left (1 : Fin 2) x₁ x₂ h (ix2 p n) rfl (ix2 p k) fun d =>
    match d with
    | ⟨0, _⟩ => rfl
    | ⟨1, _⟩ => hn.symm

/-- A column past the first piece reads the second piece, the first piece's width to the left. -/
theorem concat_cols_right (x₁ : (⟨2, ![a, b₁]⟩ : Shape).Idx → α) (x₂ : (⟨2, ![a, b₂]⟩ : Shape).Idx → α)
    (h : Shape.Concatenates [(⟨2, ![a, b₁]⟩ : Shape), ⟨2, ![a, b₂]⟩] ⟨2, ![a, c]⟩ 1)
    (p : Fin a) (n : Fin c) (k : Fin b₂) (hn : n.val = b₁ + k.val) :
    concatenate ⟨2, ![a, c]⟩ 1 [⟨⟨2, ![a, b₁]⟩, x₁⟩, ⟨⟨2, ![a, b₂]⟩, x₂⟩] h (ix2 p n) = x₂ (ix2 p k) :=
  concatenate_pair_apply_right (1 : Fin 2) x₁ x₂ h (ix2 p n) rfl rfl (ix2 p k)
    (fun d hd =>
      match d, hd with
      | ⟨0, _⟩, _ => rfl
      | ⟨1, _⟩, hd => absurd rfl hd)
    (by show k.val + b₁ = n.val; omega)

end Cert.LibConcatCols

end
-- ==== Proof.KernelLayers.lean ====
/-
  The layers of the decoder as a kernel computes them on a block of K rows, read at one row.

  Every statement here has the same form: if the operands, read along row p of the block, are given rows and matrices
  over the extended reals, then the layer's result read along row p is the corresponding function of
  Cert.DecoderRow — the stacked product for a cell's pre-activations, the gate arithmetic for the carried and the
  hidden row, the fused state of the third cell, a head.  Casting a value to sixteen bits and back does nothing to
  an extended real, so the casts around the products drop out.  A loaded slab of a stacked array reads the array at
  the slab's position.
-/
import proofs.«147460_j49624052138309_2_alg».proof.Proof.DecoderRow
import proofs.«147460_j49624052138309_2_alg».proof.Proof.LibDenseLayer
import proofs.«147460_j49624052138309_2_alg».proof.Proof.LibConcatCols
import Idealize.ShloMosaic.Lib.ValueLayout
import Idealize.ShloMosaic.Lib.Pipeline.Value

noncomputable section

open scoped BigOperators

namespace Cert.KernelLayers

open Idealize.ShloMosaic Idealize.ShloMosaic.ValueIdx Idealize.ShloMosaic.DenseBlock Idealize.ShloMosaic.DenseLayer
open Cert.DecoderRow

variable {K : ℕ}

/-! ## Loads -/

theorem zeros1 : (![0] : Fin 1 → ℕ) = fun _ => 0 := by
  funext a; match a with | ⟨0, _⟩ => rfl
theorem zeros2 : (![0, 0] : Fin 2 → ℕ) = fun _ => 0 := by
  funext a; match a with | ⟨0, _⟩ => rfl | ⟨1, _⟩ => rfl

/-- Slab l of an [n, a, b] array, loaded as a [1, a, b] block, reads the array at (l, k, j). -/
theorem ld_slab3 {Val : EltTy → Type} {e : EltTy} {n a b : ℕ} (X : (⟨3, ![n, a, b]⟩ : Shape).Idx → Val e) (l : ℕ)
    (inb : ∀ d, (![l, 0, 0] : Fin 3 → ℕ) d + (![1, a, b] : Fin 3 → ℕ) d ≤ (⟨3, ![n, a, b]⟩ : Shape).size d)
    (L : Fin n) (hL : L.val = l) (k : Fin a) (j : Fin b) :
    View.ld X (Rect.unit (s := ⟨3, ![n, a, b]⟩) ![l, 0, 0] ![1, a, b] inb) (ix3 (0 : Fin 1) k j) = X (ix3 L k j) :=
  congrArg X (funext fun d => Fin.ext (by
    match d with
    | ⟨0, _⟩ => show l + 1 * 0 = L.val; omega
    | ⟨1, _⟩ => show 0 + 1 * k.val = k.val; omega
    | ⟨2, _⟩ => show 0 + 1 * j.val = j.val; omega))

/-- Row l of an [n, b] array, loaded as a [1, b] block, reads the array at (l, j). -/
theorem ld_slab2 {Val : EltTy → Type} {e : EltTy} {n b : ℕ} (X : (⟨2, ![n, b]⟩ : Shape).Idx → Val e) (l : ℕ)
    (inb : ∀ d, (![l, 0] : Fin 2 → ℕ) d + (![1, b] : Fin 2 → ℕ) d ≤ (⟨2, ![n, b]⟩ : Shape).size d)
    (L : Fin n) (hL : L.val = l) (j : Fin b) :
    View.ld X (Rect.unit (s := ⟨2, ![n, b]⟩) ![l, 0] ![1, b] inb) (ix2 (0 : Fin 1) j) = X (ix2 L j) :=
  congrArg X (funext fun d => Fin.ext (by
    match d with
    | ⟨0, _⟩ => show l + 1 * 0 = L.val; omega
    | ⟨1, _⟩ => show 0 + 1 * j.val = j.val; omega))

/-! ## A cell -/

/-- The pre-activations, as one product of the row (x, h) with the stacked weights plus the bias row. -/
theorem stacked_apply
    (wf : DotDims.WF ⟨2, ![K, 256]⟩ ⟨2, ![256, 512]⟩ ⟨2, ![K, 512]⟩ [1] [0] [0] [1] [] [])
    (xb hb : FVec Ideal ⟨2, ![K, 128]⟩ .bf16) (W : FVec Ideal ⟨2, ![256, 512]⟩ .bf16)
    (bias : FVec Ideal ⟨2, ![1, 512]⟩ .f32)
    (hc : Shape.Concatenates [(⟨2, ![K, 128]⟩ : Shape), ⟨2, ![K, 128]⟩] ⟨2, ![K, 256]⟩ 1)
    (hbc : (⟨2, ![1, 512]⟩ : Shape).Broadcasts ⟨2, ![K, 512]⟩)
    (p : Fin K) (x h : Fin 128 → EReal) (Wx Wh : Fin 128 → Fin 512 → EReal) (b : Fin 512 → EReal)
    (hx : ∀ k, xb (ix2 p k) = x k) (hh : ∀ k, hb (ix2 p k) = h k)
    (hWx : ∀ k j, W (ix2 (lo k) j) = Wx k j) (hWh : ∀ k j, W (ix2 (hi k) j) = Wh k j)
    (hb' : ∀ j, bias (ix2 (0 : Fin 1) j) = b j) (j : Fin 512) :
    addf (matmul (mmDims K 256 512 wf) none
          (concatenate ⟨2, ![K, 256]⟩ 1 [⟨⟨2, ![K, 128]⟩, xb⟩, ⟨⟨2, ![K, 128]⟩, hb⟩] hc) W
          (constant ⟨2, ![K, 512]⟩ .f32 0x00000000#32))
        (broadcastTo ⟨2, ![K, 512]⟩ bias hbc) (ix2 p j)
      = pre x h Wx Wh b j := by
  refine (affine_apply wf _ W bias hbc p j).trans ?_
  exact pre_of_stacked
    (fun n => concatenate ⟨2, ![K, 256]⟩ 1 [⟨⟨2, ![K, 128]⟩, xb⟩, ⟨⟨2, ![K, 128]⟩, hb⟩] hc (ix2 p n))
    (fun n j => W (ix2 n j)) (fun j => bias (ix2 (0 : Fin 1) j)) x h Wx Wh b
    (fun k => (LibConcatCols.concat_cols_left xb hb hc p (lo k) k rfl).trans (hx k))
    (fun k => (LibConcatCols.concat_cols_right xb hb hc p (hi k) k rfl).trans (hh k))
    hWx hWh hb' j

/-- The new carried row from the pre-activations and the old carried row. -/
theorem carry_apply (z : FVec Ideal ⟨2, ![K, 512]⟩ .f32) (c : FVec Ideal ⟨2, ![K, 128]⟩ .f32)
    (h0 : (⟨2, ![K, 512]⟩ : Shape).Slices ![0, 0] ⟨2, ![K, 128]⟩)
    (h1 : (⟨2, ![K, 512]⟩ : Shape).Slices ![0, 128] ⟨2, ![K, 128]⟩)
    (h2 : (⟨2, ![K, 512]⟩ : Shape).Slices ![0, 256] ⟨2, ![K, 128]⟩)
    (p : Fin K) (zr : Fin 512 → EReal) (cr : Fin 128 → EReal)
    (hz : ∀ j, z (ix2 p j) = zr j) (hc : ∀ k, c (ix2 p k) = cr k) (q : Fin 128) :
    addf (mulf (logistic (extractStridedSlice ⟨2, ![K, 128]⟩ ![0, 128] z h1)) c)
        (mulf (logistic (extractStridedSlice ⟨2, ![K, 128]⟩ ![0, 0] z h0))
          (tanh (extractStridedSlice ⟨2, ![K, 128]⟩ ![0, 256] z h2))) (ix2 p q)
      = carry zr cr q := by
  show Ideal.logistic (extractStridedSlice ⟨2, ![K, 128]⟩ ![0, 128] z h1 (ix2 p q)) * c (ix2 p q)
      + Ideal.logistic (extractStridedSlice ⟨2, ![K, 128]⟩ ![0, 0] z h0 (ix2 p q))
        * Ideal.tanh (extractStridedSlice ⟨2, ![K, 128]⟩ ![0, 256] z h2 (ix2 p q)) = _
  rw [slice2_axis1_apply 128 z h1 p q (gate 128 (by norm_num) q) rfl,
    slice2_axis1_apply 0 z h0 p q (gate 0 (by norm_num) q) rfl,
    slice2_axis1_apply 256 z h2 p q (gate 256 (by norm_num) q) rfl, hz, hz, hz, hc]
  rfl

/-- The new hidden row from the pre-activations and the new carried row. -/
theorem hidden_apply (z : FVec Ideal ⟨2, ![K, 512]⟩ .f32) (cn : FVec Ideal ⟨2, ![K, 128]⟩ .f32)
    (h3 : (⟨2, ![K, 512]⟩ : Shape).Slices ![0, 384] ⟨2, ![K, 128]⟩)
    (p : Fin K) (zr : Fin 512 → EReal) (cr : Fin 128 → EReal)
    (hz : ∀ j, z (ix2 p j) = zr j) (hcn : ∀ k, cn (ix2 p k) = carry zr cr k) (q : Fin 128) :
    mulf (logistic (extractStridedSlice ⟨2, ![K, 128]⟩ ![0, 384] z h3)) (tanh cn) (ix2 p q) = hidden zr cr q := by
  show Ideal.logistic (extractStridedSlice ⟨2, ![K, 128]⟩ ![0, 384] z h3 (ix2 p q)) * Ideal.tanh (cn (ix2 p q)) = _
  rw [slice2_axis1_apply 384 z h3 p q (gate 384 (by norm_num) q) rfl, hz, hcn]
  rfl

/-- Both steps at once: the new hidden row when the new carried row is formed in place. -/
theorem cell_hidden_apply (z : FVec Ideal ⟨2, ![K, 512]⟩ .f32) (c : FVec Ideal ⟨2, ![K, 128]⟩ .f32)
    (h0 : (⟨2, ![K, 512]⟩ : Shape).Slices ![0, 0] ⟨2, ![K, 128]⟩)
    (h1 : (⟨2, ![K, 512]⟩ : Shape).Slices ![0, 128] ⟨2, ![K, 128]⟩)
    (h2 : (⟨2, ![K, 512]⟩ : Shape).Slices ![0, 256] ⟨2, ![K, 128]⟩)
    (h3 : (⟨2, ![K, 512]⟩ : Shape).Slices ![0, 384] ⟨2, ![K, 128]⟩)
    (p : Fin K) (zr : Fin 512 → EReal) (cr : Fin 128 → EReal)
    (hz : ∀ j, z (ix2 p j) = zr j) (hc : ∀ k, c (ix2 p k) = cr k) (q : Fin 128) :
    mulf (logistic (extractStridedSlice ⟨2, ![K, 128]⟩ ![0, 384] z h3))
        (tanh (addf (mulf (logistic (extractStridedSlice ⟨2, ![K, 128]⟩ ![0, 128] z h1)) c)
          (mulf (logistic (extractStridedSlice ⟨2, ![K, 128]⟩ ![0, 0] z h0))
            (tanh (extractStridedSlice ⟨2, ![K, 128]⟩ ![0, 256] z h2))))) (ix2 p q)
      = hidden zr cr q :=
  hidden_apply z _ h3 p zr cr hz (fun k => carry_apply z c h0 h1 h2 p zr cr hz hc k) q

/-! ## The state handed to the third cell -/

/-- s + t·W + b, the product into a zero accumulator and the bias one row laid along every row. -/
theorem fuse_apply (wf : DotDims.WF ⟨2, ![K, 128]⟩ ⟨2, ![128, 128]⟩ ⟨2, ![K, 128]⟩ [1] [0] [0] [1] [] [])
    (s : FVec Ideal ⟨2, ![K, 128]⟩ .f32) (t : FVec Ideal ⟨2, ![K, 128]⟩ .bf16) (W : FVec Ideal ⟨2, ![128, 128]⟩ .bf16)
    (bias : FVec Ideal ⟨2, ![1, 128]⟩ .f32) (hbc : (⟨2, ![1, 128]⟩ : Shape).Broadcasts ⟨2, ![K, 128]⟩)
    (p : Fin K) (sr tr : Fin 128 → EReal) (Wr : Fin 128 → Fin 128 → EReal) (br : Fin 128 → EReal)
    (hs : ∀ k, s (ix2 p k) = sr k) (ht : ∀ k, t (ix2 p k) = tr k) (hW : ∀ k j, W (ix2 k j) = Wr k j)
    (hb : ∀ j, bias (ix2 (0 : Fin 1) j) = br j) (j : Fin 128) :
    addf (addf s (matmul (mmDims K 128 128 wf) none t W (constant ⟨2, ![K, 128]⟩ .f32 0x00000000#32)))
        (broadcastTo ⟨2, ![K, 128]⟩ bias hbc) (ix2 p j)
      = fuse sr tr Wr br j := by
  show (s (ix2 p j) + FloatOps.matmul (mmDims K 128 128 wf) none t W (constant ⟨2, ![K, 128]⟩ .f32 0x00000000#32) (ix2 p j))
      + broadcastTo ⟨2, ![K, 128]⟩ bias hbc (ix2 p j) = _
  rw [matmul_zero_apply wf t W p j, broadcastTo_1b_ab_apply bias hbc p j, hs, hb]
  unfold fuse
  simp only [ht, hW]

/-! ## A head -/

/-- max(h·M + m, 0)·O + o, both products into zero accumulators, both biases one row laid along every row. -/
theorem head_apply {Q : ℕ}
    (wf1 : DotDims.WF ⟨2, ![K, 128]⟩ ⟨2, ![128, 128]⟩ ⟨2, ![K, 128]⟩ [1] [0] [0] [1] [] [])
    (wf2 : DotDims.WF ⟨2, ![K, 128]⟩ ⟨2, ![128, Q]⟩ ⟨2, ![K, Q]⟩ [1] [0] [0] [1] [] [])
    (h : FVec Ideal ⟨2, ![K, 128]⟩ .bf16) (M : FVec Ideal ⟨2, ![128, 128]⟩ .bf16) (mb : FVec Ideal ⟨2, ![1, 128]⟩ .f32)
    (O : FVec Ideal ⟨2, ![128, Q]⟩ .bf16) (ob : FVec Ideal ⟨2, ![1, Q]⟩ .f32)
    (hb1 : (⟨2, ![1, 128]⟩ : Shape).Broadcasts ⟨2, ![K, 128]⟩) (hb2 : (⟨2, ![1, Q]⟩ : Shape).Broadcasts ⟨2, ![K, Q]⟩)
    (hlt : FTy.bf16.bits < FTy.f32.bits)
    (p : Fin K) (hr : Fin 128 → EReal) (Mr : Fin 128 → Fin 128 → EReal) (mr : Fin 128 → EReal)
    (Or : Fin 128 → Fin Q → EReal) (or : Fin Q → EReal)
    (hh : ∀ k, h (ix2 p k) = hr k) (hM : ∀ k j, M (ix2 k j) = Mr k j) (hm : ∀ j, mb (ix2 (0 : Fin 1) j) = mr j)
    (hO : ∀ k j, O (ix2 k j) = Or k j) (ho : ∀ j, ob (ix2 (0 : Fin 1) j) = or j) (q : Fin Q) :
    addf (matmul (mmDims K 128 Q wf2) none
          (truncf .bf16 (maximumf (addf (matmul (mmDims K 128 128 wf1) none h M (constant ⟨2, ![K, 128]⟩ .f32 0x00000000#32))
              (broadcastTo ⟨2, ![K, 128]⟩ mb hb1))
            (broadcast ⟨2, ![K, 128]⟩ (Scalar.ofBits (F := Ideal) .f32 0x00000000#32))) hlt)
          O (constant ⟨2, ![K, Q]⟩ .f32 0x00000000#32))
        (broadcastTo ⟨2, ![K, Q]⟩ ob hb2) (ix2 p q)
      = head hr Mr mr Or or q := by
  refine (affine_apply wf2 _ O ob hb2 p q).trans ?_
  unfold head affine
  rw [ho]
  refine congrArg (· + or q) (Finset.sum_congr rfl fun n _ => ?_)
  rw [hO]
  refine congrArg (· * Or n q) ?_
  show max (addf (matmul (mmDims K 128 128 wf1) none h M (constant ⟨2, ![K, 128]⟩ .f32 0x00000000#32))
      (broadcastTo ⟨2, ![K, 128]⟩ mb hb1) (ix2 p n)) zeroWord = _
  rw [affine_apply wf1 h M mb hb1 p n, hm]
  simp only [hh, hM]

end Cert.KernelLayers

end
-- ==== Proof.KernelStages.lean ====
/-
  One row of one block through the kernel's body.

  The body's stores are written over nested pure terms: the first cell's pre-activations, carried row and hidden row;
  the second cell's; the fused state and the third cell's hidden row; the three heads.  Read along row p of the block,
  each of them is the corresponding function of Cert.DecoderRow of row p of the x block, with the parameters read
  off the other blocks: the stacked weights' rows 0..127 are Wx and rows 128..255 are Wh, slab l of a stacked array
  is cell (or head) l's.  Each stage is proved from the stages before it.
-/
import proofs.«147460_j49624052138309_2_alg».proof.Proof.Gen.KernelIdeal.Frame
import proofs.«147460_j49624052138309_2_alg».proof.Proof.KernelLayers

set_option maxRecDepth 16384

noncomputable section

namespace Cert.KernelBlock

open Cert.KernelIdeal Cert.KernelIdeal.Gen Cert.DecoderRow Cert.KernelLayers
open Idealize.ShloMosaic Idealize.ShloMosaic.ValueIdx

/-- The parameters as one grid point's blocks hold them. -/
def blockParams (x1 : Vec Ideal S3x256x512 .bf16) (x2 : Vec Ideal S3x512 .f32) (x3 : Vec Ideal S128x128 .bf16)
    (x4 : Vec Ideal S128 .f32) (x5 : Vec Ideal S128x128 .bf16) (x6 : Vec Ideal S128 .f32)
    (x7 : Vec Ideal S3x128x128 .bf16) (x8 : Vec Ideal S3x128 .f32) (x9 : Vec Ideal S128x103 .bf16)
    (x10 : Vec Ideal S103 .f32) (x11 : Vec Ideal S128x119 .bf16) (x12 : Vec Ideal S119 .f32)
    (x13 : Vec Ideal S128x11 .bf16) (x14 : Vec Ideal S11 .f32) : Params where
  Wx l k j := x1 (ix3 l (lo k) j)
  Wh l k j := x1 (ix3 l (hi k) j)
  b l j := x2 (ix2 l j)
  U k j := x3 (ix2 k j)
  u j := x4 (ix1 j)
  V k j := x5 (ix2 k j)
  v j := x6 (ix1 j)
  M l k j := x7 (ix3 l k j)
  m l j := x8 (ix2 l j)
  O1 k j := x9 (ix2 k j)
  o1 j := x10 (ix1 j)
  O2 k j := x11 (ix2 k j)
  o2 j := x12 (ix1 j)
  O3 k j := x13 (ix2 k j)
  o3 j := x14 (ix1 j)

section

variable (x0 : Vec Ideal S4096x128 .f32) (x1 : Vec Ideal S3x256x512 .bf16) (x2 : Vec Ideal S3x512 .f32)
  (x3 : Vec Ideal S128x128 .bf16) (x4 : Vec Ideal S128 .f32) (x5 : Vec Ideal S128x128 .bf16) (x6 : Vec Ideal S128 .f32)
  (x7 : Vec Ideal S3x128x128 .bf16) (x8 : Vec Ideal S3x128 .f32) (x9 : Vec Ideal S128x103 .bf16)
  (x10 : Vec Ideal S103 .f32) (x11 : Vec Ideal S128x119 .bf16) (x12 : Vec Ideal S119 .f32)
  (x13 : Vec Ideal S128x11 .bf16) (x14 : Vec Ideal S11 .f32) (p : Fin 4096)

local notation "PP" => blockParams x1 x2 x3 x4 x5 x6 x7 x8 x9 x10 x11 x12 x13 x14
local notation "xr" => (fun k : Fin 128 => x0 (ix2 p k))

/-! ## The first cell -/

theorem z1_row (j : Fin 512) :
    k0_pay6 (F := Ideal) x0 (View.ld x1 r0_3) (View.ld x2 r0_4) (ix2 p j) = z1 PP xr j := by
  refine stacked_apply dot_S4096x256_S256x512_S4096x512_1_0_0_1_n_n.wf _ _ _ _ _ _ p xr (fun _ => zeroWord) (fun k j => x1 (ix3 (0 : Fin 3) (lo k) j)) (fun k j => x1 (ix3 (0 : Fin 3) (hi k) j)) (fun j => x2 (ix2 (0 : Fin 3) j)) ?_ ?_ ?_ ?_ ?_ j
  · intro k; rfl
  · intro k; rfl
  · intro k j; exact (shapeCast_1ab_ab_apply _ _ (lo k) j).trans (ld_slab3 (Val := Elt Ideal) (e := .bf16) x1 0 _ (0 : Fin 3) rfl (lo k) j)
  · intro k j; exact (shapeCast_1ab_ab_apply _ _ (hi k) j).trans (ld_slab3 (Val := Elt Ideal) (e := .bf16) x1 0 _ (0 : Fin 3) rfl (hi k) j)
  · intro j; exact (shapeCast_a_1a_apply _ _ (0 : Fin 1) j).trans ((shapeCast_1a_a_apply _ _ j).trans (ld_slab2 (Val := Elt Ideal) (e := .f32) x2 0 _ (0 : Fin 3) rfl j))

theorem c1_row (q : Fin 128) :
    k0_pay7 (F := Ideal) x0 (View.ld x1 r0_3) (View.ld x2 r0_4) (ix2 p q) = c1 PP xr q := by
  refine carry_apply _ _ _ _ _ p (z1 PP xr) (fun _ => zeroWord) ?_ ?_ q
  · exact z1_row x0 x1 x2 x3 x4 x5 x6 x7 x8 x9 x10 x11 x12 x13 x14 p
  · intro k; rfl

theorem h1_row (q : Fin 128) :
    k0_pay8 (F := Ideal) x0 (View.ld x1 r0_3) (View.ld x2 r0_4) (ix2 p q) = h1 PP xr q := by
  refine hidden_apply _ _ _ p (z1 PP xr) (fun _ => zeroWord) ?_ ?_ q
  · exact z1_row x0 x1 x2 x3 x4 x5 x6 x7 x8 x9 x10 x11 x12 x13 x14 p
  · exact c1_row x0 x1 x2 x3 x4 x5 x6 x7 x8 x9 x10 x11 x12 x13 x14 p

/-! ## The second cell -/

theorem z2_row (j : Fin 512) :
    k0_pay12 (F := Ideal) (k0_pay9 (View.ld x1 r0_5)) (k0_pay10 (View.ld x2 r0_6)) (k0_pay11 x0 (View.ld x1 r0_3) (View.ld x2 r0_4)) (constant S4096x512 .f32 0x00000000#32) (ix2 p j) = z2 PP xr j := by
  unfold k0_pay12 k0_pay11
  refine stacked_apply dot_S4096x256_S256x512_S4096x512_1_0_0_1_n_n.wf _ _ _ _ _ _ p xr (h1 PP xr) (fun k j => x1 (ix3 (1 : Fin 3) (lo k) j)) (fun k j => x1 (ix3 (1 : Fin 3) (hi k) j)) (fun j => x2 (ix2 (1 : Fin 3) j)) ?_ ?_ ?_ ?_ ?_ j
  · intro k; rfl
  · exact h1_row x0 x1 x2 x3 x4 x5 x6 x7 x8 x9 x10 x11 x12 x13 x14 p
  · intro k j; exact (shapeCast_1ab_ab_apply _ _ (lo k) j).trans (ld_slab3 (Val := Elt Ideal) (e := .bf16) x1 1 _ (1 : Fin 3) rfl (lo k) j)
  · intro k j; exact (shapeCast_1ab_ab_apply _ _ (hi k) j).trans (ld_slab3 (Val := Elt Ideal) (e := .bf16) x1 1 _ (1 : Fin 3) rfl (hi k) j)
  · intro j; exact (shapeCast_a_1a_apply _ _ (0 : Fin 1) j).trans ((shapeCast_1a_a_apply _ _ j).trans (ld_slab2 (Val := Elt Ideal) (e := .f32) x2 1 _ (1 : Fin 3) rfl j))

theorem c2_row (q : Fin 128) :
    k0_pay13 (F := Ideal) (k0_pay7 x0 (View.ld x1 r0_3) (View.ld x2 r0_4)) (k0_pay9 (View.ld x1 r0_5)) (k0_pay10 (View.ld x2 r0_6)) (k0_pay11 x0 (View.ld x1 r0_3) (View.ld x2 r0_4)) (constant S4096x512 .f32 0x00000000#32) (ix2 p q) = c2 PP xr q := by
  refine carry_apply _ _ _ _ _ p (z2 PP xr) (c1 PP xr) ?_ ?_ q
  · exact z2_row x0 x1 x2 x3 x4 x5 x6 x7 x8 x9 x10 x11 x12 x13 x14 p
  · exact c1_row x0 x1 x2 x3 x4 x5 x6 x7 x8 x9 x10 x11 x12 x13 x14 p

theorem h2_row (q : Fin 128) :
    k0_pay14 (F := Ideal) (k0_pay7 x0 (View.ld x1 r0_3) (View.ld x2 r0_4)) (k0_pay9 (View.ld x1 r0_5)) (k0_pay10 (View.ld x2 r0_6)) (k0_pay11 x0 (View.ld x1 r0_3) (View.ld x2 r0_4)) (constant S4096x512 .f32 0x00000000#32) (ix2 p q) = h2 PP xr q := by
  refine hidden_apply _ _ _ p (z2 PP xr) (c1 PP xr) ?_ ?_ q
  · exact z2_row x0 x1 x2 x3 x4 x5 x6 x7 x8 x9 x10 x11 x12 x13 x14 p
  · exact c2_row x0 x1 x2 x3 x4 x5 x6 x7 x8 x9 x10 x11 x12 x13 x14 p

/-! ## The fused state and the third cell -/

theorem h3_row (q : Fin 128) :
    k0_pay15 (F := Ideal) (k0_pay2 x0) (k0_pay3 x3) x4 (k0_pay4 x5) x6 (k0_pay7 x0 (View.ld x1 r0_3) (View.ld x2 r0_4)) (k0_pay8 x0 (View.ld x1 r0_3) (View.ld x2 r0_4)) (k0_pay9 (View.ld x1 r0_5)) (k0_pay10 (View.ld x2 r0_6)) (k0_pay11 x0 (View.ld x1 r0_3) (View.ld x2 r0_4)) (constant S4096x512 .f32 0x00000000#32) (View.ld x1 r0_7) (View.ld x2 r0_8) (ix2 p q) = h3 PP xr q := by
  refine cell_hidden_apply _ _ _ _ _ _ p (z3 PP xr) (c3in PP xr) ?_ ?_ q
  · intro j
    refine stacked_apply dot_S4096x256_S256x512_S4096x512_1_0_0_1_n_n.wf _ _ _ _ _ _ p xr (h3in PP xr) (fun k j => x1 (ix3 (2 : Fin 3) (lo k) j)) (fun k j => x1 (ix3 (2 : Fin 3) (hi k) j)) (fun j => x2 (ix2 (2 : Fin 3) j)) ?_ ?_ ?_ ?_ ?_ j
    · intro k; rfl
    · intro k
      refine fuse_apply dot_S4096x128_S128x128_S4096x128_1_0_0_1_n_n.wf _ _ _ _ _ p (h1 PP xr) (h2 PP xr) (fun k j => x3 (ix2 k j)) (fun j => x4 (ix1 j)) ?_ ?_ ?_ ?_ k
      · exact h1_row x0 x1 x2 x3 x4 x5 x6 x7 x8 x9 x10 x11 x12 x13 x14 p
      · exact h2_row x0 x1 x2 x3 x4 x5 x6 x7 x8 x9 x10 x11 x12 x13 x14 p
      · intro k j; exact congrFun (shapeCast_self x3 _) (ix2 k j)
      · intro j; exact shapeCast_a_1a_apply x4 _ (0 : Fin 1) j
    · intro k j; exact (shapeCast_1ab_ab_apply _ _ (lo k) j).trans (ld_slab3 (Val := Elt Ideal) (e := .bf16) x1 2 _ (2 : Fin 3) rfl (lo k) j)
    · intro k j; exact (shapeCast_1ab_ab_apply _ _ (hi k) j).trans (ld_slab3 (Val := Elt Ideal) (e := .bf16) x1 2 _ (2 : Fin 3) rfl (hi k) j)
    · intro j; exact (shapeCast_a_1a_apply _ _ (0 : Fin 1) j).trans ((shapeCast_1a_a_apply _ _ j).trans (ld_slab2 (Val := Elt Ideal) (e := .f32) x2 2 _ (2 : Fin 3) rfl j))
  · intro k
    refine fuse_apply dot_S4096x128_S128x128_S4096x128_1_0_0_1_n_n.wf _ _ _ _ _ p (c1 PP xr) (c2 PP xr) (fun k j => x5 (ix2 k j)) (fun j => x6 (ix1 j)) ?_ ?_ ?_ ?_ k
    · exact c1_row x0 x1 x2 x3 x4 x5 x6 x7 x8 x9 x10 x11 x12 x13 x14 p
    · exact c2_row x0 x1 x2 x3 x4 x5 x6 x7 x8 x9 x10 x11 x12 x13 x14 p
    · intro k j; exact congrFun (shapeCast_self x5 _) (ix2 k j)
    · intro j; exact shapeCast_a_1a_apply x6 _ (0 : Fin 1) j

/-! ## The heads -/

/-- Head 1 on row p. -/
theorem o1_row (q : Fin 103) :
    k0_pay16 (F := Ideal) (k0_pay8 x0 (View.ld x1 r0_3) (View.ld x2 r0_4)) (View.ld x7 r0_9) (View.ld x8 r0_10) x9 x10 (ix2 p q) = out1 PP xr q := by
  refine head_apply dot_S4096x128_S128x128_S4096x128_1_0_0_1_n_n.wf dot_S4096x128_S128x103_S4096x103_1_0_0_1_n_n.wf _ _ _ _ _ _ _ _ p (h1 PP xr)
    (fun k j => x7 (ix3 (0 : Fin 3) k j)) (fun j => x8 (ix2 (0 : Fin 3) j)) (fun k j => x9 (ix2 k j)) (fun j => x10 (ix1 j))
    ?_ ?_ ?_ ?_ ?_ q
  · exact h1_row x0 x1 x2 x3 x4 x5 x6 x7 x8 x9 x10 x11 x12 x13 x14 p
  · intro k j; exact (shapeCast_1ab_ab_apply _ _ k j).trans (ld_slab3 (Val := Elt Ideal) (e := .bf16) x7 0 _ (0 : Fin 3) rfl k j)
  · intro j; exact (shapeCast_a_1a_apply _ _ (0 : Fin 1) j).trans ((shapeCast_1a_a_apply _ _ j).trans (ld_slab2 (Val := Elt Ideal) (e := .f32) x8 0 _ (0 : Fin 3) rfl j))
  · intro k j; exact congrFun (shapeCast_self x9 _) (ix2 k j)
  · intro j; exact shapeCast_a_1a_apply x10 _ (0 : Fin 1) j

/-- Head 2 on row p. -/
theorem o2_row (q : Fin 119) :
    k0_pay17 (F := Ideal) (k0_pay14 (k0_pay7 x0 (View.ld x1 r0_3) (View.ld x2 r0_4)) (k0_pay9 (View.ld x1 r0_5)) (k0_pay10 (View.ld x2 r0_6)) (k0_pay11 x0 (View.ld x1 r0_3) (View.ld x2 r0_4)) (constant S4096x512 .f32 0x00000000#32)) (View.ld x7 r0_13) (View.ld x8 r0_14) x11 x12 (ix2 p q) = out2 PP xr q := by
  refine head_apply dot_S4096x128_S128x128_S4096x128_1_0_0_1_n_n.wf dot_S4096x128_S128x119_S4096x119_1_0_0_1_n_n.wf _ _ _ _ _ _ _ _ p (h2 PP xr)
    (fun k j => x7 (ix3 (1 : Fin 3) k j)) (fun j => x8 (ix2 (1 : Fin 3) j)) (fun k j => x11 (ix2 k j)) (fun j => x12 (ix1 j))
    ?_ ?_ ?_ ?_ ?_ q
  · exact h2_row x0 x1 x2 x3 x4 x5 x6 x7 x8 x9 x10 x11 x12 x13 x14 p
  · intro k j; exact (shapeCast_1ab_ab_apply _ _ k j).trans (ld_slab3 (Val := Elt Ideal) (e := .bf16) x7 1 _ (1 : Fin 3) rfl k j)
  · intro j; exact (shapeCast_a_1a_apply _ _ (0 : Fin 1) j).trans ((shapeCast_1a_a_apply _ _ j).trans (ld_slab2 (Val := Elt Ideal) (e := .f32) x8 1 _ (1 : Fin 3) rfl j))
  · intro k j; exact congrFun (shapeCast_self x11 _) (ix2 k j)
  · intro j; exact shapeCast_a_1a_apply x12 _ (0 : Fin 1) j

/-- Head 3 on row p. -/
theorem o3_row (q : Fin 11) :
    k0_pay1 (F := Ideal) (k0_pay15 (F := Ideal) (k0_pay2 x0) (k0_pay3 x3) x4 (k0_pay4 x5) x6 (k0_pay7 x0 (View.ld x1 r0_3) (View.ld x2 r0_4)) (k0_pay8 x0 (View.ld x1 r0_3) (View.ld x2 r0_4)) (k0_pay9 (View.ld x1 r0_5)) (k0_pay10 (View.ld x2 r0_6)) (k0_pay11 x0 (View.ld x1 r0_3) (View.ld x2 r0_4)) (constant S4096x512 .f32 0x00000000#32) (View.ld x1 r0_7) (View.ld x2 r0_8)) (View.ld x7 r0_17) (View.ld x8 r0_18) x13 x14 (ix2 p q) = out3 PP xr q := by
  refine head_apply dot_S4096x128_S128x128_S4096x128_1_0_0_1_n_n.wf dot_S4096x128_S128x11_S4096x11_1_0_0_1_n_n.wf _ _ _ _ _ _ _ _ p (h3 PP xr)
    (fun k j => x7 (ix3 (2 : Fin 3) k j)) (fun j => x8 (ix2 (2 : Fin 3) j)) (fun k j => x13 (ix2 k j)) (fun j => x14 (ix1 j))
    ?_ ?_ ?_ ?_ ?_ q
  · exact h3_row x0 x1 x2 x3 x4 x5 x6 x7 x8 x9 x10 x11 x12 x13 x14 p
  · intro k j; exact (shapeCast_1ab_ab_apply _ _ k j).trans (ld_slab3 (Val := Elt Ideal) (e := .bf16) x7 2 _ (2 : Fin 3) rfl k j)
  · intro j; exact (shapeCast_a_1a_apply _ _ (0 : Fin 1) j).trans ((shapeCast_1a_a_apply _ _ j).trans (ld_slab2 (Val := Elt Ideal) (e := .f32) x8 2 _ (2 : Fin 3) rfl j))
  · intro k j; exact congrFun (shapeCast_self x13 _) (ix2 k j)
  · intro j; exact shapeCast_a_1a_apply x14 _ (0 : Fin 1) j

/-! ## What the body leaves in each output block -/

theorem out15_row (q : Fin 103) : out0_15 (F := Ideal) x0 x1 x2 x3 x4 x5 x6 x7 x8 x9 x10 x11 x12 x13 x14 (ix2 p q) = out1 PP xr q := by
  unfold out0_15
  rw [View.canon_unit_zero zeros2]
  simp only [View.ld_unit_zero (S := S4096x128) zeros2, View.ld_unit_zero (S := S128x103) zeros2,
    View.ld_unit_zero (S := S103) zeros1]
  exact o1_row x0 x1 x2 x3 x4 x5 x6 x7 x8 x9 x10 x11 x12 x13 x14 p q

theorem out16_row (q : Fin 119) : out0_16 (F := Ideal) x0 x1 x2 x3 x4 x5 x6 x7 x8 x9 x10 x11 x12 x13 x14 (ix2 p q) = out2 PP xr q := by
  unfold out0_16
  rw [View.canon_unit_zero zeros2]
  simp only [View.ld_unit_zero (S := S4096x128) zeros2, View.ld_unit_zero (S := S128x119) zeros2,
    View.ld_unit_zero (S := S119) zeros1]
  exact o2_row x0 x1 x2 x3 x4 x5 x6 x7 x8 x9 x10 x11 x12 x13 x14 p q

theorem out17_row (q : Fin 11) : out0_17 (F := Ideal) x0 x1 x2 x3 x4 x5 x6 x7 x8 x9 x10 x11 x12 x13 x14 (ix2 p q) = out3 PP xr q := by
  unfold out0_17
  rw [View.canon_unit_zero zeros2]
  simp only [View.ld_unit_zero (S := S4096x128) zeros2, View.ld_unit_zero (S := S128x128) zeros2,
    View.ld_unit_zero (S := S128) zeros1, View.ld_unit_zero (S := S128x11) zeros2, View.ld_unit_zero (S := S11) zeros1]
  exact o3_row x0 x1 x2 x3 x4 x5 x6 x7 x8 x9 x10 x11 x12 x13 x14 p q

end

end Cert.KernelBlock

end
-- ==== Proof.LibStackMiddle.lean ====
/-
  Two [n, a, b] arrays stacked along the middle axis, read at an entry.

  The stacked array [n, c, b] (c = a + a) reads the first piece at middle positions below a and the second piece,
  a positions up, from a on.
-/
import Idealize.ShloMosaic.Lib.ValueIdx
import Idealize.ShloMosaic.Lib.Pipeline.Value

noncomputable section

namespace Cert.LibStackMiddle

open Idealize.ShloMosaic Idealize.ShloMosaic.ValueIdx

variable {α : Type} {n a b c : ℕ}

/-- A middle position inside the first piece reads the first piece there. -/
theorem stack_first (x₁ x₂ : (⟨3, ![n, a, b]⟩ : Shape).Idx → α)
    (h : Shape.Concatenates [(⟨3, ![n, a, b]⟩ : Shape), ⟨3, ![n, a, b]⟩] ⟨3, ![n, c, b]⟩ 1)
    (l : Fin n) (r : Fin c) (k : Fin a) (j : Fin b) (hr : r.val = k.val) :
    concatenate ⟨3, ![n, c, b]⟩ 1 [⟨⟨3, ![n, a, b]⟩, x₁⟩, ⟨⟨3, ![n, a, b]⟩, x₂⟩] h (ix3 l r j) = x₁ (ix3 l k j) :=
  concatenate_pair_apply_left (1 : Fin 3) x₁ x₂ h (ix3 l r j) rfl (ix3 l k j) fun d =>
    match d with
    | ⟨0, _⟩ => rfl
    | ⟨1, _⟩ => hr.symm
    | ⟨2, _⟩ => rfl

/-- A middle position past the first piece reads the second piece, the first piece's extent down. -/
theorem stack_second (x₁ x₂ : (⟨3, ![n, a, b]⟩ : Shape).Idx → α)
    (h : Shape.Concatenates [(⟨3, ![n, a, b]⟩ : Shape), ⟨3, ![n, a, b]⟩] ⟨3, ![n, c, b]⟩ 1)
    (l : Fin n) (r : Fin c) (k : Fin a) (j : Fin b) (hr : r.val = a + k.val) :
    concatenate ⟨3, ![n, c, b]⟩ 1 [⟨⟨3, ![n, a, b]⟩, x₁⟩, ⟨⟨3, ![n, a, b]⟩, x₂⟩] h (ix3 l r j) = x₂ (ix3 l k j) :=
  concatenate_pair_apply_right (1 : Fin 3) x₁ x₂ h (ix3 l r j) rfl rfl (ix3 l k j)
    (fun d hd =>
      match d, hd with
      | ⟨0, _⟩, _ => rfl
      | ⟨1, _⟩, hd => absurd rfl hd
      | ⟨2, _⟩, _ => rfl)
    (by show k.val + a = r.val; omega)

end Cert.LibStackMiddle

end
-- ==== Proof.KernelArrays.lean ====
/-
  From one block row to the whole arrays.

  The grid has 16 points; point t stages rows t·4096 .. t·4096 + 4095 of x and writes back the same rows of the three
  results, while every parameter window stages its whole array at every point.  Before the region the host stacks Wx on
  top of Wh along the middle axis and changes the matrices' float format, which does nothing to an extended real.  So
  what point t writes back is block t of ONE function of the argument arrays — the network of Cert.DecoderRow applied to
  every row of x, with the parameters read off the argument arrays by coordinates —, the sixteen blocks cover each result
  array, and after the run each result array is that function.
-/
import proofs.«147460_j49624052138309_2_alg».proof.Proof.Gen.KernelIdeal.Value
import proofs.«147460_j49624052138309_2_alg».proof.Proof.KernelStages
import proofs.«147460_j49624052138309_2_alg».proof.Proof.LibStackMiddle
import Idealize.ShloMosaic.Lib.StableHlo.Run
import Idealize.ShloMosaic.Lib.Pipeline.Value

set_option maxRecDepth 16384

noncomputable section

namespace Cert.KernelArrays

open Cert.KernelIdeal Cert.KernelIdeal.Gen Cert.KernelIdeal.Value Cert.DecoderRow Cert.KernelBlock
open Idealize.ShloMosaic Idealize.ShloMosaic.ValueIdx Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-! ## Two parameter records with equal fields are equal -/

theorem params_ext (P Q : Params) (h1 : P.Wx = Q.Wx) (h2 : P.Wh = Q.Wh) (h3 : P.b = Q.b) (h4 : P.U = Q.U) (h5 : P.u = Q.u)
    (h6 : P.V = Q.V) (h7 : P.v = Q.v) (h8 : P.M = Q.M) (h9 : P.m = Q.m) (h10 : P.O1 = Q.O1) (h11 : P.o1 = Q.o1)
    (h12 : P.O2 = Q.O2) (h13 : P.o2 = Q.o2) (h14 : P.O3 = Q.O3) (h15 : P.o3 = Q.o3) : P = Q := by
  cases P; cases Q
  dsimp only at h1 h2 h3 h4 h5 h6 h7 h8 h9 h10 h11 h12 h13 h14 h15
  subst h1 h2 h3 h4 h5 h6 h7 h8 h9 h10 h11 h12 h13 h14 h15
  rfl

/-! ## The arrays as the region finds them -/

/-- The stacked weights: Wx on top of Wh along the middle axis. -/
theorem V_main_v1 (c : Dev nD) :
    (V m c main_v1 : S3x256x512.Idx → EReal)
      = concatenate S3x256x512 1 [⟨S3x128x512, ((m ((c : Thread nD τ).loc main_arg1)) : S3x128x512.Idx → EReal)⟩,
          ⟨S3x128x512, ((m ((c : Thread nD τ).loc main_arg2)) : S3x128x512.Idx → EReal)⟩]
          concatenates_S3x128x512_S3x128x512_S3x256x512_d1 := by
  dsimp only [Gen.V, Gen.hostOps0]; after_results; rfl

theorem V_main_v2 (c : Dev nD) : (V m c main_v2 : S128x128.Idx → EReal) = ((m ((c : Thread nD τ).loc main_arg4)) : S128x128.Idx → EReal) := by
  dsimp only [Gen.V, Gen.hostOps0]; after_results; rfl
theorem V_main_v3 (c : Dev nD) : (V m c main_v3 : S128x128.Idx → EReal) = ((m ((c : Thread nD τ).loc main_arg6)) : S128x128.Idx → EReal) := by
  dsimp only [Gen.V, Gen.hostOps0]; after_results; rfl
theorem V_main_v4 (c : Dev nD) : (V m c main_v4 : S3x128x128.Idx → EReal) = ((m ((c : Thread nD τ).loc main_arg8)) : S3x128x128.Idx → EReal) := by
  dsimp only [Gen.V, Gen.hostOps0]; after_results; rfl
theorem V_main_v5 (c : Dev nD) : (V m c main_v5 : S128x103.Idx → EReal) = ((m ((c : Thread nD τ).loc main_arg10)) : S128x103.Idx → EReal) := by
  dsimp only [Gen.V, Gen.hostOps0]; after_results; rfl
theorem V_main_v6 (c : Dev nD) : (V m c main_v6 : S128x119.Idx → EReal) = ((m ((c : Thread nD τ).loc main_arg12)) : S128x119.Idx → EReal) := by
  dsimp only [Gen.V, Gen.hostOps0]; after_results; rfl
theorem V_main_v7 (c : Dev nD) : (V m c main_v7 : S128x11.Idx → EReal) = ((m ((c : Thread nD τ).loc main_arg14)) : S128x11.Idx → EReal) := by
  dsimp only [Gen.V, Gen.hostOps0]; after_results; rfl

/-! ## The printed index maps, decided over the sixteen points -/

/-- The x window and the three result windows move down one block per point; their column block is 0. -/
theorem idx_rows : ∀ t : Fin cfg0.N, win0_0.index t (0 : Fin 2) = t.val ∧ win0_0.index t (1 : Fin 2) = 0
    ∧ win0_15.index t (0 : Fin 2) = t.val ∧ win0_15.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

theorem idx1 : ∀ t : Fin cfg0.N, ∀ a : Fin 3, win0_1.index t a = 0 :=
  (by decide +kernel : ∀ t : Fin grid0.N, _)
theorem idx2 : ∀ t : Fin cfg0.N, ∀ a : Fin 2, win0_2.index t a = 0 :=
  (by decide +kernel : ∀ t : Fin grid0.N, _)
theorem idx3 : ∀ t : Fin cfg0.N, ∀ a : Fin 2, win0_3.index t a = 0 :=
  (by decide +kernel : ∀ t : Fin grid0.N, _)
theorem idx4 : ∀ t : Fin cfg0.N, ∀ a : Fin 1, win0_4.index t a = 0 :=
  (by decide +kernel : ∀ t : Fin grid0.N, _)
theorem idx5 : ∀ t : Fin cfg0.N, ∀ a : Fin 2, win0_5.index t a = 0 :=
  (by decide +kernel : ∀ t : Fin grid0.N, _)
theorem idx6 : ∀ t : Fin cfg0.N, ∀ a : Fin 1, win0_6.index t a = 0 :=
  (by decide +kernel : ∀ t : Fin grid0.N, _)
theorem idx7 : ∀ t : Fin cfg0.N, ∀ a : Fin 3, win0_7.index t a = 0 :=
  (by decide +kernel : ∀ t : Fin grid0.N, _)
theorem idx8 : ∀ t : Fin cfg0.N, ∀ a : Fin 2, win0_8.index t a = 0 :=
  (by decide +kernel : ∀ t : Fin grid0.N, _)
theorem idx9 : ∀ t : Fin cfg0.N, ∀ a : Fin 2, win0_9.index t a = 0 :=
  (by decide +kernel : ∀ t : Fin grid0.N, _)
theorem idx10 : ∀ t : Fin cfg0.N, ∀ a : Fin 1, win0_10.index t a = 0 :=
  (by decide +kernel : ∀ t : Fin grid0.N, _)
theorem idx11 : ∀ t : Fin cfg0.N, ∀ a : Fin 2, win0_11.index t a = 0 :=
  (by decide +kernel : ∀ t : Fin grid0.N, _)
theorem idx12 : ∀ t : Fin cfg0.N, ∀ a : Fin 1, win0_12.index t a = 0 :=
  (by decide +kernel : ∀ t : Fin grid0.N, _)
theorem idx13 : ∀ t : Fin cfg0.N, ∀ a : Fin 2, win0_13.index t a = 0 :=
  (by decide +kernel : ∀ t : Fin grid0.N, _)
theorem idx14 : ∀ t : Fin cfg0.N, ∀ a : Fin 1, win0_14.index t a = 0 :=
  (by decide +kernel : ∀ t : Fin grid0.N, _)

/-! ## The input blocks -/

theorem iblk1 (c : Dev nD) (t : Fin cfg0.N) : iblk m c 1 t = V m c main_v1 := by
  unfold iblk
  have hz : (fun a => win0_1.index t a * main_v1.ty.shape.size a) = fun _ => 0 :=
    funext fun a => by rw [idx1 t a]; exact Nat.zero_mul _
  exact Memref.read_access_unit_zero (Elt Ideal) main_v1 hz (fun a => by rw [congrFun hz a]; simp) (V m c main_v1)
theorem iblk2 (c : Dev nD) (t : Fin cfg0.N) : iblk m c 2 t = V m c main_arg3 := by
  unfold iblk
  have hz : (fun a => win0_2.index t a * main_arg3.ty.shape.size a) = fun _ => 0 :=
    funext fun a => by rw [idx2 t a]; exact Nat.zero_mul _
  exact Memref.read_access_unit_zero (Elt Ideal) main_arg3 hz (fun a => by rw [congrFun hz a]; simp) (V m c main_arg3)
theorem iblk3 (c : Dev nD) (t : Fin cfg0.N) : iblk m c 3 t = V m c main_v2 := by
  unfold iblk
  have hz : (fun a => win0_3.index t a * main_v2.ty.shape.size a) = fun _ => 0 :=
    funext fun a => by rw [idx3 t a]; exact Nat.zero_mul _
  exact Memref.read_access_unit_zero (Elt Ideal) main_v2 hz (fun a => by rw [congrFun hz a]; simp) (V m c main_v2)
theorem iblk4 (c : Dev nD) (t : Fin cfg0.N) : iblk m c 4 t = V m c main_arg5 := by
  unfold iblk
  have hz : (fun a => win0_4.index t a * main_arg5.ty.shape.size a) = fun _ => 0 :=
    funext fun a => by rw [idx4 t a]; exact Nat.zero_mul _
  exact Memref.read_access_unit_zero (Elt Ideal) main_arg5 hz (fun a => by rw [congrFun hz a]; simp) (V m c main_arg5)
theorem iblk5 (c : Dev nD) (t : Fin cfg0.N) : iblk m c 5 t = V m c main_v3 := by
  unfold iblk
  have hz : (fun a => win0_5.index t a * main_v3.ty.shape.size a) = fun _ => 0 :=
    funext fun a => by rw [idx5 t a]; exact Nat.zero_mul _
  exact Memref.read_access_unit_zero (Elt Ideal) main_v3 hz (fun a => by rw [congrFun hz a]; simp) (V m c main_v3)
theorem iblk6 (c : Dev nD) (t : Fin cfg0.N) : iblk m c 6 t = V m c main_arg7 := by
  unfold iblk
  have hz : (fun a => win0_6.index t a * main_arg7.ty.shape.size a) = fun _ => 0 :=
    funext fun a => by rw [idx6 t a]; exact Nat.zero_mul _
  exact Memref.read_access_unit_zero (Elt Ideal) main_arg7 hz (fun a => by rw [congrFun hz a]; simp) (V m c main_arg7)
theorem iblk7 (c : Dev nD) (t : Fin cfg0.N) : iblk m c 7 t = V m c main_v4 := by
  unfold iblk
  have hz : (fun a => win0_7.index t a * main_v4.ty.shape.size a) = fun _ => 0 :=
    funext fun a => by rw [idx7 t a]; exact Nat.zero_mul _
  exact Memref.read_access_unit_zero (Elt Ideal) main_v4 hz (fun a => by rw [congrFun hz a]; simp) (V m c main_v4)
theorem iblk8 (c : Dev nD) (t : Fin cfg0.N) : iblk m c 8 t = V m c main_arg9 := by
  unfold iblk
  have hz : (fun a => win0_8.index t a * main_arg9.ty.shape.size a) = fun _ => 0 :=
    funext fun a => by rw [idx8 t a]; exact Nat.zero_mul _
  exact Memref.read_access_unit_zero (Elt Ideal) main_arg9 hz (fun a => by rw [congrFun hz a]; simp) (V m c main_arg9)
theorem iblk9 (c : Dev nD) (t : Fin cfg0.N) : iblk m c 9 t = V m c main_v5 := by
  unfold iblk
  have hz : (fun a => win0_9.index t a * main_v5.ty.shape.size a) = fun _ => 0 :=
    funext fun a => by rw [idx9 t a]; exact Nat.zero_mul _
  exact Memref.read_access_unit_zero (Elt Ideal) main_v5 hz (fun a => by rw [congrFun hz a]; simp) (V m c main_v5)
theorem iblk10 (c : Dev nD) (t : Fin cfg0.N) : iblk m c 10 t = V m c main_arg11 := by
  unfold iblk
  have hz : (fun a => win0_10.index t a * main_arg11.ty.shape.size a) = fun _ => 0 :=
    funext fun a => by rw [idx10 t a]; exact Nat.zero_mul _
  exact Memref.read_access_unit_zero (Elt Ideal) main_arg11 hz (fun a => by rw [congrFun hz a]; simp) (V m c main_arg11)
theorem iblk11 (c : Dev nD) (t : Fin cfg0.N) : iblk m c 11 t = V m c main_v6 := by
  unfold iblk
  have hz : (fun a => win0_11.index t a * main_v6.ty.shape.size a) = fun _ => 0 :=
    funext fun a => by rw [idx11 t a]; exact Nat.zero_mul _
  exact Memref.read_access_unit_zero (Elt Ideal) main_v6 hz (fun a => by rw [congrFun hz a]; simp) (V m c main_v6)
theorem iblk12 (c : Dev nD) (t : Fin cfg0.N) : iblk m c 12 t = V m c main_arg13 := by
  unfold iblk
  have hz : (fun a => win0_12.index t a * main_arg13.ty.shape.size a) = fun _ => 0 :=
    funext fun a => by rw [idx12 t a]; exact Nat.zero_mul _
  exact Memref.read_access_unit_zero (Elt Ideal) main_arg13 hz (fun a => by rw [congrFun hz a]; simp) (V m c main_arg13)
theorem iblk13 (c : Dev nD) (t : Fin cfg0.N) : iblk m c 13 t = V m c main_v7 := by
  unfold iblk
  have hz : (fun a => win0_13.index t a * main_v7.ty.shape.size a) = fun _ => 0 :=
    funext fun a => by rw [idx13 t a]; exact Nat.zero_mul _
  exact Memref.read_access_unit_zero (Elt Ideal) main_v7 hz (fun a => by rw [congrFun hz a]; simp) (V m c main_v7)
theorem iblk14 (c : Dev nD) (t : Fin cfg0.N) : iblk m c 14 t = V m c main_arg15 := by
  unfold iblk
  have hz : (fun a => win0_14.index t a * main_arg15.ty.shape.size a) = fun _ => 0 :=
    funext fun a => by rw [idx14 t a]; exact Nat.zero_mul _
  exact Memref.read_access_unit_zero (Elt Ideal) main_arg15 hz (fun a => by rw [congrFun hz a]; simp) (V m c main_arg15)

/-- Local entry (p, k) of point t's x block is entry (t·4096 + p, k) of x. -/
theorem iblk0_apply (c : Dev nD) (t : Fin cfg0.N) (p : Fin 4096) (k : Fin 128) (r : Fin 65536)
    (hr : r.val = t.val * 4096 + p.val) :
    iblk m c 0 t (ix2 p k) = V m c main_arg0 (ix2 r k) := by
  show V m c main_arg0 (((cfg0.win 0).blk t).view.emb (ix2 p k)) = _
  obtain ⟨e0, e1, -⟩ := idx_rows t
  refine congrArg _ (funext fun a => Fin.ext ?_)
  match a with
  | ⟨0, _⟩ => show win0_0.index t (0 : Fin 2) * 4096 + 1 * p.val = r.val; rw [e0, hr]; omega
  | ⟨1, _⟩ => show win0_0.index t (1 : Fin 2) * 128 + 1 * k.val = k.val; rw [e1]; omega

/-! ## The parameters -/

/-- The parameters as the region's arrays hold them. -/
def regionParams (c : Dev nD) : Params :=
  blockParams (V m c main_v1) (V m c main_arg3) (V m c main_v2) (V m c main_arg5) (V m c main_v3) (V m c main_arg7)
    (V m c main_v4) (V m c main_arg9) (V m c main_v5) (V m c main_arg11) (V m c main_v6) (V m c main_arg13)
    (V m c main_v7) (V m c main_arg15)

/-- The parameters read off the argument arrays. -/
def argParams (c : Dev nD) : Params :=
  arrayParams (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-- They are the same: rows 0..127 of the stacked weights are Wx, rows 128..255 are Wh, and the other arrays are
    the arguments themselves. -/
theorem regionParams_eq (c : Dev nD) : regionParams m c = argParams m c := by
  refine params_ext _ _ ?_ ?_ ?_ ?_ ?_ ?_ ?_ ?_ ?_ ?_ ?_ ?_ ?_ ?_ ?_
  · funext l k j
    show (V m c main_v1 : S3x256x512.Idx → EReal) (ix3 l (lo k) j) = (m ((c : Thread nD τ).loc main_arg1)) (ix3 l k j)
    rw [V_main_v1 m c]
    exact LibStackMiddle.stack_first _ _ _ l (lo k) k j rfl
  · funext l k j
    show (V m c main_v1 : S3x256x512.Idx → EReal) (ix3 l (hi k) j) = (m ((c : Thread nD τ).loc main_arg2)) (ix3 l k j)
    rw [V_main_v1 m c]
    exact LibStackMiddle.stack_second _ _ _ l (hi k) k j rfl
  · funext l j; exact congrFun (V_main_arg3 m c) (ix2 l j)
  · funext k j; exact congrFun (V_main_v2 m c) (ix2 k j)
  · funext j; exact congrFun (V_main_arg5 m c) (ix1 j)
  · funext k j; exact congrFun (V_main_v3 m c) (ix2 k j)
  · funext j; exact congrFun (V_main_arg7 m c) (ix1 j)
  · funext l k j; exact congrFun (V_main_v4 m c) (ix3 l k j)
  · funext l j; exact congrFun (V_main_arg9 m c) (ix2 l j)
  · funext k j; exact congrFun (V_main_v5 m c) (ix2 k j)
  · funext j; exact congrFun (V_main_arg11 m c) (ix1 j)
  · funext k j; exact congrFun (V_main_v6 m c) (ix2 k j)
  · funext j; exact congrFun (V_main_arg13 m c) (ix1 j)
  · funext k j; exact congrFun (V_main_v7 m c) (ix2 k j)
  · funext j; exact congrFun (V_main_arg15 m c) (ix1 j)

/-! ## The three results -/

/-- Result 1: the first head on the first cell's hidden row, for every row of x. -/
def result1 (c : Dev nD) : S65536x103.Idx → EReal := onRows (out1 (argParams m c)) (m ((c : Thread nD τ).loc main_arg0))
/-- Result 2: the second head on the second cell's hidden row. -/
def result2 (c : Dev nD) : S65536x119.Idx → EReal := onRows (out2 (argParams m c)) (m ((c : Thread nD τ).loc main_arg0))
/-- Result 3: the third head on the third cell's hidden row. -/
def result3 (c : Dev nD) : S65536x11.Idx → EReal := onRows (out3 (argParams m c)) (m ((c : Thread nD τ).loc main_arg0))

/-! ### Output 1 -/

/-- Local entry (p, q) of point t's block is entry (t·4096 + p, q) of the array. -/
theorem emb15 (t : Fin cfg0.N) (p : Fin 4096) (q : Fin 103) (r : Fin 65536) (hr : r.val = t.val * 4096 + p.val) :
    ((cfg0.win 15).blk t).view.emb (ix2 p q) = (ix2 r q : S65536x103.Idx) := by
  obtain ⟨-, -, e15, f15, e16, f16, e17, f17⟩ := idx_rows t
  refine funext fun a => Fin.ext ?_
  match a with
  | ⟨0, _⟩ => show win0_15.index t (0 : Fin 2) * 4096 + 1 * p.val = r.val; rw [e15, hr]; omega
  | ⟨1, _⟩ => show win0_15.index t (1 : Fin 2) * 103 + 1 * q.val = q.val; rw [f15]; omega

/-- What point t writes back is block t of the network applied to every row of x. -/
theorem flushed15_eq (c : Dev nD) (t : Fin cfg0.N) :
    (dats m 0 c).flushed 15 t = ((cfg0.win 15).blk t).view.read (Elt Ideal) (result1 m c) := by
  rw [Value.flushed15]
  funext y
  obtain ⟨p, q, rfl⟩ : ∃ (p : Fin 4096) (q : Fin 103), y = ix2 p q := ⟨y 0, y 1, eq_ix2 y⟩
  have hN : cfg0.N = 16 := N_0
  have hr : t.val * 4096 + p.val < 65536 := by
    have h1 : t.val < 16 := lt_of_lt_of_eq t.isLt hN
    have h2 := p.isLt
    omega
  show out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = result1 m c (((cfg0.win 15).blk t).view.emb (ix2 p q))
  rw [emb15 t p q ⟨t.val * 4096 + p.val, hr⟩ rfl]
  refine (out15_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [iblk1 m c t, iblk2 m c t, iblk3 m c t, iblk4 m c t, iblk5 m c t, iblk6 m c t, iblk7 m c t, iblk8 m c t, iblk9 m c t, iblk10 m c t, iblk11 m c t, iblk12 m c t, iblk13 m c t, iblk14 m c t]
  show out1 (regionParams m c) (fun k => iblk m c 0 t (ix2 p k)) q
      = out1 (argParams m c) (fun k => (m ((c : Thread nD τ).loc main_arg0)) (ix2 (⟨t.val * 4096 + p.val, hr⟩ : Fin 65536) k)) q
  rw [regionParams_eq m c]
  refine congrArg (fun x => out1 (argParams m c) x q) (funext fun k => ?_)
  exact (iblk0_apply m c t p k ⟨t.val * 4096 + p.val, hr⟩ rfl).trans (congrFun (V_main_arg0 m c) _)

/-- Every entry of the array is in some point's block: row r is in block r / 4096. -/
theorem cover15 (i : S65536x103.Idx) :
    ∃ t : Fin cfg0.N, (cfg0.win 15).flush t = true ∧ i ∈ ((cfg0.win 15).blk t).view.set := by
  have hi0 : (i 0).val < 65536 := (i 0).isLt
  have hi1 : (i 1).val < 103 := (i 1).isLt
  have hN : cfg0.N = 16 := N_0
  have hlt : (i 0).val / 4096 < cfg0.N := by rw [hN]; omega
  refine ⟨⟨(i 0).val / 4096, hlt⟩, flush0_15 _, ?_⟩
  obtain ⟨-, -, e15, f15, e16, f16, e17, f17⟩ := idx_rows ⟨(i 0).val / 4096, hlt⟩
  show i ∈ ((View.whole main_v8_0).slice (win0_15.rect ⟨(i 0).val / 4096, hlt⟩)).set
  rw [View.set_slice_whole, Rect.mem_set_unit]
  intro a
  match a with
  | ⟨0, _⟩ =>
    show win0_15.index ⟨(i 0).val / 4096, hlt⟩ (0 : Fin 2) * 4096 ≤ (i 0).val
      ∧ (i 0).val < win0_15.index ⟨(i 0).val / 4096, hlt⟩ (0 : Fin 2) * 4096 + 4096
    rw [e15]
    show (i 0).val / 4096 * 4096 ≤ (i 0).val ∧ (i 0).val < (i 0).val / 4096 * 4096 + 4096
    omega
  | ⟨1, _⟩ =>
    show win0_15.index ⟨(i 0).val / 4096, hlt⟩ (1 : Fin 2) * 103 ≤ (i 1).val
      ∧ (i 1).val < win0_15.index ⟨(i 0).val / 4096, hlt⟩ (1 : Fin 2) * 103 + 103
    rw [f15]; omega

/-- So the array ends holding the network applied to every row of x. -/
theorem final15 (c : Dev nD) : (dats m 0 c).arrAt 15 cfg0.N = result1 m c :=
  (dats m 0 c).arrAt_eq_of_cover 15 (result1 m c) (fun t _ => flushed15_eq m c t) cover15

/-! ### Output 2 -/

/-- Local entry (p, q) of point t's block is entry (t·4096 + p, q) of the array. -/
theorem emb16 (t : Fin cfg0.N) (p : Fin 4096) (q : Fin 119) (r : Fin 65536) (hr : r.val = t.val * 4096 + p.val) :
    ((cfg0.win 16).blk t).view.emb (ix2 p q) = (ix2 r q : S65536x119.Idx) := by
  obtain ⟨-, -, e15, f15, e16, f16, e17, f17⟩ := idx_rows t
  refine funext fun a => Fin.ext ?_
  match a with
  | ⟨0, _⟩ => show win0_16.index t (0 : Fin 2) * 4096 + 1 * p.val = r.val; rw [e16, hr]; omega
  | ⟨1, _⟩ => show win0_16.index t (1 : Fin 2) * 119 + 1 * q.val = q.val; rw [f16]; omega

/-- What point t writes back is block t of the network applied to every row of x. -/
theorem flushed16_eq (c : Dev nD) (t : Fin cfg0.N) :
    (dats m 0 c).flushed 16 t = ((cfg0.win 16).blk t).view.read (Elt Ideal) (result2 m c) := by
  rw [Value.flushed16]
  funext y
  obtain ⟨p, q, rfl⟩ : ∃ (p : Fin 4096) (q : Fin 119), y = ix2 p q := ⟨y 0, y 1, eq_ix2 y⟩
  have hN : cfg0.N = 16 := N_0
  have hr : t.val * 4096 + p.val < 65536 := by
    have h1 : t.val < 16 := lt_of_lt_of_eq t.isLt hN
    have h2 := p.isLt
    omega
  show out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = result2 m c (((cfg0.win 16).blk t).view.emb (ix2 p q))
  rw [emb16 t p q ⟨t.val * 4096 + p.val, hr⟩ rfl]
  refine (out16_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [iblk1 m c t, iblk2 m c t, iblk3 m c t, iblk4 m c t, iblk5 m c t, iblk6 m c t, iblk7 m c t, iblk8 m c t, iblk9 m c t, iblk10 m c t, iblk11 m c t, iblk12 m c t, iblk13 m c t, iblk14 m c t]
  show out2 (regionParams m c) (fun k => iblk m c 0 t (ix2 p k)) q
      = out2 (argParams m c) (fun k => (m ((c : Thread nD τ).loc main_arg0)) (ix2 (⟨t.val * 4096 + p.val, hr⟩ : Fin 65536) k)) q
  rw [regionParams_eq m c]
  refine congrArg (fun x => out2 (argParams m c) x q) (funext fun k => ?_)
  exact (iblk0_apply m c t p k ⟨t.val * 4096 + p.val, hr⟩ rfl).trans (congrFun (V_main_arg0 m c) _)

/-- Every entry of the array is in some point's block: row r is in block r / 4096. -/
theorem cover16 (i : S65536x119.Idx) :
    ∃ t : Fin cfg0.N, (cfg0.win 16).flush t = true ∧ i ∈ ((cfg0.win 16).blk t).view.set := by
  have hi0 : (i 0).val < 65536 := (i 0).isLt
  have hi1 : (i 1).val < 119 := (i 1).isLt
  have hN : cfg0.N = 16 := N_0
  have hlt : (i 0).val / 4096 < cfg0.N := by rw [hN]; omega
  refine ⟨⟨(i 0).val / 4096, hlt⟩, flush0_16 _, ?_⟩
  obtain ⟨-, -, e15, f15, e16, f16, e17, f17⟩ := idx_rows ⟨(i 0).val / 4096, hlt⟩
  show i ∈ ((View.whole main_v8_1).slice (win0_16.rect ⟨(i 0).val / 4096, hlt⟩)).set
  rw [View.set_slice_whole, Rect.mem_set_unit]
  intro a
  match a with
  | ⟨0, _⟩ =>
    show win0_16.index ⟨(i 0).val / 4096, hlt⟩ (0 : Fin 2) * 4096 ≤ (i 0).val
      ∧ (i 0).val < win0_16.index ⟨(i 0).val / 4096, hlt⟩ (0 : Fin 2) * 4096 + 4096
    rw [e16]
    show (i 0).val / 4096 * 4096 ≤ (i 0).val ∧ (i 0).val < (i 0).val / 4096 * 4096 + 4096
    omega
  | ⟨1, _⟩ =>
    show win0_16.index ⟨(i 0).val / 4096, hlt⟩ (1 : Fin 2) * 119 ≤ (i 1).val
      ∧ (i 1).val < win0_16.index ⟨(i 0).val / 4096, hlt⟩ (1 : Fin 2) * 119 + 119
    rw [f16]; omega

/-- So the array ends holding the network applied to every row of x. -/
theorem final16 (c : Dev nD) : (dats m 0 c).arrAt 16 cfg0.N = result2 m c :=
  (dats m 0 c).arrAt_eq_of_cover 16 (result2 m c) (fun t _ => flushed16_eq m c t) cover16

/-! ### Output 3 -/

/-- Local entry (p, q) of point t's block is entry (t·4096 + p, q) of the array. -/
theorem emb17 (t : Fin cfg0.N) (p : Fin 4096) (q : Fin 11) (r : Fin 65536) (hr : r.val = t.val * 4096 + p.val) :
    ((cfg0.win 17).blk t).view.emb (ix2 p q) = (ix2 r q : S65536x11.Idx) := by
  obtain ⟨-, -, e15, f15, e16, f16, e17, f17⟩ := idx_rows t
  refine funext fun a => Fin.ext ?_
  match a with
  | ⟨0, _⟩ => show win0_17.index t (0 : Fin 2) * 4096 + 1 * p.val = r.val; rw [e17, hr]; omega
  | ⟨1, _⟩ => show win0_17.index t (1 : Fin 2) * 11 + 1 * q.val = q.val; rw [f17]; omega

/-- What point t writes back is block t of the network applied to every row of x. -/
theorem flushed17_eq (c : Dev nD) (t : Fin cfg0.N) :
    (dats m 0 c).flushed 17 t = ((cfg0.win 17).blk t).view.read (Elt Ideal) (result3 m c) := by
  rw [Value.flushed17]
  funext y
  obtain ⟨p, q, rfl⟩ : ∃ (p : Fin 4096) (q : Fin 11), y = ix2 p q := ⟨y 0, y 1, eq_ix2 y⟩
  have hN : cfg0.N = 16 := N_0
  have hr : t.val * 4096 + p.val < 65536 := by
    have h1 : t.val < 16 := lt_of_lt_of_eq t.isLt hN
    have h2 := p.isLt
    omega
  show out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 p q) = result3 m c (((cfg0.win 17).blk t).view.emb (ix2 p q))
  rw [emb17 t p q ⟨t.val * 4096 + p.val, hr⟩ rfl]
  refine (out17_row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) p q).trans ?_
  rw [iblk1 m c t, iblk2 m c t, iblk3 m c t, iblk4 m c t, iblk5 m c t, iblk6 m c t, iblk7 m c t, iblk8 m c t, iblk9 m c t, iblk10 m c t, iblk11 m c t, iblk12 m c t, iblk13 m c t, iblk14 m c t]
  show out3 (regionParams m c) (fun k => iblk m c 0 t (ix2 p k)) q
      = out3 (argParams m c) (fun k => (m ((c : Thread nD τ).loc main_arg0)) (ix2 (⟨t.val * 4096 + p.val, hr⟩ : Fin 65536) k)) q
  rw [regionParams_eq m c]
  refine congrArg (fun x => out3 (argParams m c) x q) (funext fun k => ?_)
  exact (iblk0_apply m c t p k ⟨t.val * 4096 + p.val, hr⟩ rfl).trans (congrFun (V_main_arg0 m c) _)

/-- Every entry of the array is in some point's block: row r is in block r / 4096. -/
theorem cover17 (i : S65536x11.Idx) :
    ∃ t : Fin cfg0.N, (cfg0.win 17).flush t = true ∧ i ∈ ((cfg0.win 17).blk t).view.set := by
  have hi0 : (i 0).val < 65536 := (i 0).isLt
  have hi1 : (i 1).val < 11 := (i 1).isLt
  have hN : cfg0.N = 16 := N_0
  have hlt : (i 0).val / 4096 < cfg0.N := by rw [hN]; omega
  refine ⟨⟨(i 0).val / 4096, hlt⟩, flush0_17 _, ?_⟩
  obtain ⟨-, -, e15, f15, e16, f16, e17, f17⟩ := idx_rows ⟨(i 0).val / 4096, hlt⟩
  show i ∈ ((View.whole main_v8_2).slice (win0_17.rect ⟨(i 0).val / 4096, hlt⟩)).set
  rw [View.set_slice_whole, Rect.mem_set_unit]
  intro a
  match a with
  | ⟨0, _⟩ =>
    show win0_17.index ⟨(i 0).val / 4096, hlt⟩ (0 : Fin 2) * 4096 ≤ (i 0).val
      ∧ (i 0).val < win0_17.index ⟨(i 0).val / 4096, hlt⟩ (0 : Fin 2) * 4096 + 4096
    rw [e17]
    show (i 0).val / 4096 * 4096 ≤ (i 0).val ∧ (i 0).val < (i 0).val / 4096 * 4096 + 4096
    omega
  | ⟨1, _⟩ =>
    show win0_17.index ⟨(i 0).val / 4096, hlt⟩ (1 : Fin 2) * 11 ≤ (i 1).val
      ∧ (i 1).val < win0_17.index ⟨(i 0).val / 4096, hlt⟩ (1 : Fin 2) * 11 + 11
    rw [f17]; omega

/-- So the array ends holding the network applied to every row of x. -/
theorem final17 (c : Dev nD) : (dats m 0 c).arrAt 17 cfg0.N = result3 m c :=
  (dats m 0 c).arrAt_eq_of_cover 17 (result3 m c) (fun t _ => flushed17_eq m c t) cover17

/-! ## The run -/

/-- Every weakly fair execution of the idealized kernel ends with the three result arrays at the network applied to
    every row of x, the arguments unchanged. -/
theorem run : θ_run defs (onTc (τ := τ) (main (F := Ideal))) ⟨m, fun _ => 0, ρ⟩ fun r => ∀ c : Dev nD,
      r.2.mem ((c : Thread nD τ).loc main_v8_0) = result1 m c
      ∧ r.2.mem ((c : Thread nD τ).loc main_v8_1) = result2 m c
      ∧ r.2.mem ((c : Thread nD τ).loc main_v8_2) = result3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15) :=
  (θ_run defs _ _).mono (fun r h c => ⟨(h c).1.trans (final15 m c), (h c).2.1.trans (final16 m c),
      (h c).2.2.1.trans (final17 m c), (h c).2.2.2⟩)
    (Value.run_blocks m ρ)

end Cert.KernelArrays

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«147460_j49624052138309_2_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibHostLayer.lean ====
/-
  A dense layer on the host, read at an index.

  `x @ W + b` for a batch x of E rows of N numbers, a weight matrix W laid out [N, Q] and a bias vector b of Q numbers
  lowers to a `dot_general` contracting x's second axis with W's first, and b broadcast first to one row [1, Q] and
  then along the E rows.  Over the extended reals entry (e, q) of the result is  Σ n, x (e, n) * W (n, q) + b q.
-/
import proofs.«147460_j49624052138309_2_alg».proof.Proof.LibDenseHost
import Idealize.ShloMosaic.Lib.Pipeline.Value

set_option maxRecDepth 16384

noncomputable section

open scoped BigOperators

namespace Idealize.ShloMosaic.HostLayer

open Idealize.ShloMosaic Idealize.ShloMosaic.ValueIdx Idealize.ShloMosaic.DenseBlock

/-- A bias vector broadcast to one row and then along the rows, at (e, q). -/
theorem bias_apply {E Q : ℕ} (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    broadcastInDim ⟨2, ![E, Q]⟩ ![0, 1] h2 (broadcastInDim ⟨2, ![1, Q]⟩ ![1] h1 b) (ix2 e q) = b (ix1 q) := by
  have hq := q.isLt
  rw [broadcastInDim_apply ![0, 1] h2 _ (ix2 e q) (ix2 (0 : Fin 1) q) (fun a => by
      match a with
      | ⟨0, _⟩ => show (0 : ℕ) = if (1 : ℕ) = 1 then 0 else e.val; simp
      | ⟨1, _⟩ => show q.val = if Q = 1 then 0 else q.val; split <;> omega),
    broadcastInDim_apply ![1] h1 _ (ix2 (0 : Fin 1) q) (ix1 q) (fun a => by
      match a with
      | ⟨0, _⟩ => show q.val = if Q = 1 then 0 else q.val; split <;> omega)]

/-- One layer on the host: a product and a broadcast bias, at (e, q). -/
theorem layer_apply {E N Q : ℕ} (wf : DotDims.WF ⟨2, ![E, N]⟩ ⟨2, ![N, Q]⟩ ⟨2, ![E, Q]⟩ [1] [0] [0] [1] [] [])
    (X : FVec Ideal ⟨2, ![E, N]⟩ .f32) (W : FVec Ideal ⟨2, ![N, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![E, Q]⟩ ![0, 1]) (e : Fin E) (q : Fin Q) :
    addf (Host.dotGeneral (mmDims E N Q wf) none X W)
        (broadcastInDim ⟨2, ![E, Q]⟩ ![0, 1] h2 (broadcastInDim ⟨2, ![1, Q]⟩ ![1] h1 b)) (ix2 e q)
      = (∑ n : Fin N, X (ix2 e n) * W (ix2 n q)) + b (ix1 q) := by
  show FloatOps.dotGeneral (mmDims E N Q wf) none _ X W (ix2 e q)
      + broadcastInDim ⟨2, ![E, Q]⟩ ![0, 1] h2 (broadcastInDim ⟨2, ![1, Q]⟩ ![1] h1 b) (ix2 e q) = _
  rw [dotGeneral_apply_ix2, bias_apply]

end Idealize.ShloMosaic.HostLayer

end
-- ==== Proof.ReferenceRows.lean ====
/-
  The reference program read row by row.

  The reference applies the decoder of DecoderRow to every row of its input: entry (p, q) of each of its three results is
  the corresponding output of the one-row network on row p, at q.  The program is cut at its key arrays - a cell's 512
  pre-activations, its carried and hidden rows, the two fused rows handed to the third cell, the three heads - and each
  is read at an entry (p, q) from the key arrays before it:
    * a cell's pre-activations are two matrix products and a bias broadcast along the rows, so entry (p, j) is
      x.Wx + h.Wh + b at j, the sums running over the 128 positions of row p;
    * a gate is a column slice of the pre-activations, the sigmoid is spelt 1 / (1 + exp (-t)), and every other operation
      of a cell acts entry by entry, so the carried and hidden rows at (p, q) are `carry` and `hidden` of row p;
    * a slab of a stacked parameter is a slice of width one along the leading axis followed by dropping that axis.
  Nothing here needs a number to be finite: every step is an identity of the extended reals.
-/
import proofs.«147460_j49624052138309_2_alg».proof.Proof.DecoderRow
import proofs.«147460_j49624052138309_2_alg».proof.Proof.LibHostLayer
import proofs.«147460_j49624052138309_2_alg».proof.Proof.Gen.ReferenceIdeal.Read
import Idealize.ShloMosaic.Lib.ValueLayout

noncomputable section

open scoped BigOperators

namespace Cert.ReferenceRows

open Cert.ReferenceIdeal Cert.ReferenceIdeal.Gen Cert.ReferenceIdeal.Read Cert.DecoderRow
open Idealize.ShloMosaic Idealize.ShloMosaic.ValueIdx Idealize.ShloMosaic.DenseBlock Idealize.ShloMosaic.HostLayer

/-! ## Layout: slabs of the stacked parameters, gates of the pre-activations -/

/-- Slab `l` of a stack of three matrices, at (k, j): the slice of width one at `l` along the leading axis, that axis
    dropped. -/
theorem slab_apply {a n : ℕ} (o : ℕ) (l : Fin 3) (hl : l.val = o) (W : (⟨3, ![3, a, n]⟩ : Shape).Idx → EReal)
    (hs : (⟨3, ![3, a, n]⟩ : Shape).Slices ![o, 0, 0] ⟨3, ![1, a, n]⟩)
    (hc : (⟨3, ![1, a, n]⟩ : Shape).ShapeCasts ⟨2, ![a, n]⟩) (k : Fin a) (j : Fin n) :
    shapeCast ⟨2, ![a, n]⟩ (extractStridedSlice ⟨3, ![1, a, n]⟩ ![o, 0, 0] W hs) hc (ix2 k j) = W (ix3 l k j) := by
  rw [shapeCast_1ab_ab_apply]
  exact extractStridedSlice_apply _ _ _ _ _ (fun ax => by
    match ax with
    | ⟨0, _⟩ => exact hl.trans (Nat.add_zero o).symm
    | ⟨1, _⟩ => exact (Nat.zero_add _).symm
    | ⟨2, _⟩ => exact (Nat.zero_add _).symm)

/-- Row `l` of a stack of three vectors, at j. -/
theorem stackRow_apply {n : ℕ} (o : ℕ) (l : Fin 3) (hl : l.val = o) (b : (⟨2, ![3, n]⟩ : Shape).Idx → EReal)
    (hs : (⟨2, ![3, n]⟩ : Shape).Slices ![o, 0] ⟨2, ![1, n]⟩)
    (hc : (⟨2, ![1, n]⟩ : Shape).ShapeCasts ⟨1, ![n]⟩) (j : Fin n) :
    shapeCast ⟨1, ![n]⟩ (extractStridedSlice ⟨2, ![1, n]⟩ ![o, 0] b hs) hc (ix1 j) = b (ix2 l j) := by
  rw [shapeCast_1a_a_apply]
  exact slice2_axis0_apply o b hs (0 : Fin 1) j l (hl.trans (Nat.add_zero o).symm)

/-- The gate of width 128 cut from the 512 pre-activations at column `o`, at (p, q). -/
theorem gate_apply (o : ℕ) (ho : o + 128 ≤ 512) (Z : FVec Ideal S65536x512 .f32)
    (hs : S65536x512.Slices ![0, o] S65536x128) (p : Fin 65536) (q : Fin 128) :
    extractStridedSlice S65536x128 ![0, o] Z hs (ix2 p q) = Z (ix2 p (gate o ho q)) :=
  slice2_axis1_apply o Z hs p q (gate o ho q) rfl

/-- The sigmoid as the program spells it, 1 / (1 + exp (-A)) with the ones a broadcast word, at an index. -/
theorem sigmoid_apply (A : FVec Ideal S65536x128 .f32) (i : S65536x128.Idx) :
    Host.divf (broadcastInDim S65536x128 ![] bcast_S_S65536x128 (constant S_ .f32 0x3F800000#32))
        (addf (broadcastInDim S65536x128 ![] bcast_S_S65536x128 (constant S_ .f32 0x3F800000#32))
          (Host.exp (Host.negf A))) i
      = Ideal.logistic (A i) :=
  logistic_spelt (A i)

/-! ## A cell, read at an entry -/

/-- The pre-activations of a cell at (p, j): the two products and the bias broadcast along the rows. -/
theorem pre_apply (X H : FVec Ideal S65536x128 .f32) (Wx Wh : FVec Ideal S128x512 .f32) (b : FVec Ideal S512 .f32)
    (p : Fin 65536) (j : Fin 512) (x h : Fin 128 → EReal) (wx wh : Fin 128 → Fin 512 → EReal) (bb : Fin 512 → EReal)
    (hx : ∀ k, X (ix2 p k) = x k) (hh : ∀ k, H (ix2 p k) = h k) (hwx : ∀ k j, Wx (ix2 k j) = wx k j)
    (hwh : ∀ k j, Wh (ix2 k j) = wh k j) (hb : ∀ j, b (ix1 j) = bb j) :
    addf (addf (Host.dotGeneral dot_S65536x128_S128x512_S65536x512_1_0_0_1_n_n none X Wx) (Host.dotGeneral dot_S65536x128_S128x512_S65536x512_1_0_0_1_n_n none H Wh))
        (broadcastInDim S65536x512 ![0, 1] bcast_S1x512_S65536x512_0_1 (broadcastInDim S1x512 ![1] bcast_S512_S1x512_1 b)) (ix2 p j)
      = pre x h wx wh bb j := by
  show (FloatOps.dotGeneral (mmDims 65536 128 512 dot_S65536x128_S128x512_S65536x512_1_0_0_1_n_n_wf) none _ X Wx (ix2 p j)
        + FloatOps.dotGeneral (mmDims 65536 128 512 dot_S65536x128_S128x512_S65536x512_1_0_0_1_n_n_wf) none _ H Wh (ix2 p j))
      + (broadcastInDim S65536x512 ![0, 1] bcast_S1x512_S65536x512_0_1 (broadcastInDim S1x512 ![1] bcast_S512_S1x512_1 b)) (ix2 p j) = _
  rw [dotGeneral_apply_ix2, dotGeneral_apply_ix2, bias_apply]
  unfold pre
  simp only [hx, hh, hwx, hwh, hb]

/-- The carried row of a cell at (p, q), from the pre-activations Z and the incoming carried rows C. -/
theorem carry_apply (Z : FVec Ideal S65536x512 .f32) (C : FVec Ideal S65536x128 .f32) (p : Fin 65536) (q : Fin 128)
    (z : Fin 512 → EReal) (c : Fin 128 → EReal) (hz : ∀ j, Z (ix2 p j) = z j) (hc : ∀ k, C (ix2 p k) = c k) :
    addf (mulf (Host.divf (broadcastInDim S65536x128 ![] bcast_S_S65536x128 (constant S_ .f32 0x3F800000#32)) (addf (broadcastInDim S65536x128 ![] bcast_S_S65536x128 (constant S_ .f32 0x3F800000#32)) (Host.exp (Host.negf (extractStridedSlice S65536x128 ![0, 128] Z slices_S65536x512_S65536x128_0_128))))) C)
        (mulf (Host.divf (broadcastInDim S65536x128 ![] bcast_S_S65536x128 (constant S_ .f32 0x3F800000#32)) (addf (broadcastInDim S65536x128 ![] bcast_S_S65536x128 (constant S_ .f32 0x3F800000#32)) (Host.exp (Host.negf (extractStridedSlice S65536x128 ![0, 0] Z slices_S65536x512_S65536x128_0_0))))) (Host.tanh (extractStridedSlice S65536x128 ![0, 256] Z slices_S65536x512_S65536x128_0_256))) (ix2 p q)
      = carry z c q := by
  show (Host.divf (broadcastInDim S65536x128 ![] bcast_S_S65536x128 (constant S_ .f32 0x3F800000#32)) (addf (broadcastInDim S65536x128 ![] bcast_S_S65536x128 (constant S_ .f32 0x3F800000#32)) (Host.exp (Host.negf (extractStridedSlice S65536x128 ![0, 128] Z slices_S65536x512_S65536x128_0_128))))) (ix2 p q) * C (ix2 p q)
      + (Host.divf (broadcastInDim S65536x128 ![] bcast_S_S65536x128 (constant S_ .f32 0x3F800000#32)) (addf (broadcastInDim S65536x128 ![] bcast_S_S65536x128 (constant S_ .f32 0x3F800000#32)) (Host.exp (Host.negf (extractStridedSlice S65536x128 ![0, 0] Z slices_S65536x512_S65536x128_0_0))))) (ix2 p q) * Ideal.tanh ((extractStridedSlice S65536x128 ![0, 256] Z slices_S65536x512_S65536x128_0_256) (ix2 p q)) = _
  rw [sigmoid_apply, sigmoid_apply, gate_apply 128 (by norm_num), gate_apply 0 (by norm_num), gate_apply 256 (by norm_num),
    hz, hz, hz, hc]
  rfl

/-- The hidden row of a cell at (p, q), from the pre-activations Z and the new carried rows C'. -/
theorem hidden_apply (Z : FVec Ideal S65536x512 .f32) (C' : FVec Ideal S65536x128 .f32) (p : Fin 65536) (q : Fin 128)
    (z : Fin 512 → EReal) (c : Fin 128 → EReal) (hz : ∀ j, Z (ix2 p j) = z j) (hc : C' (ix2 p q) = carry z c q) :
    mulf (Host.divf (broadcastInDim S65536x128 ![] bcast_S_S65536x128 (constant S_ .f32 0x3F800000#32)) (addf (broadcastInDim S65536x128 ![] bcast_S_S65536x128 (constant S_ .f32 0x3F800000#32)) (Host.exp (Host.negf (extractStridedSlice S65536x128 ![0, 384] Z slices_S65536x512_S65536x128_0_384))))) (Host.tanh C') (ix2 p q) = hidden z c q := by
  show (Host.divf (broadcastInDim S65536x128 ![] bcast_S_S65536x128 (constant S_ .f32 0x3F800000#32)) (addf (broadcastInDim S65536x128 ![] bcast_S_S65536x128 (constant S_ .f32 0x3F800000#32)) (Host.exp (Host.negf (extractStridedSlice S65536x128 ![0, 384] Z slices_S65536x512_S65536x128_0_384))))) (ix2 p q) * Ideal.tanh (C' (ix2 p q)) = _
  rw [sigmoid_apply, gate_apply 384 (by norm_num), hz, hc]
  rfl

/-- A state handed to the third cell at (p, j): S + T.W + b. -/
theorem fuse_apply (S T : FVec Ideal S65536x128 .f32) (W : FVec Ideal S128x128 .f32) (b : FVec Ideal S128 .f32)
    (p : Fin 65536) (j : Fin 128) (s t : Fin 128 → EReal) (hs : ∀ k, S (ix2 p k) = s k) (ht : ∀ k, T (ix2 p k) = t k) :
    addf (addf S (Host.dotGeneral dot_S65536x128_S128x128_S65536x128_1_0_0_1_n_n none T W)) (broadcastInDim S65536x128 ![0, 1] bcast_S1x128_S65536x128_0_1 (broadcastInDim S1x128 ![1] bcast_S128_S1x128_1 b)) (ix2 p j)
      = fuse s t (fun k j => W (ix2 k j)) (fun j => b (ix1 j)) j := by
  show (S (ix2 p j) + FloatOps.dotGeneral (mmDims 65536 128 128 dot_S65536x128_S128x128_S65536x128_1_0_0_1_n_n_wf) none _ T W (ix2 p j))
      + (broadcastInDim S65536x128 ![0, 1] bcast_S1x128_S65536x128_0_1 (broadcastInDim S1x128 ![1] bcast_S128_S1x128_1 b)) (ix2 p j) = _
  rw [dotGeneral_apply_ix2, bias_apply]
  unfold fuse
  simp only [hs, ht]

/-- A head at (p, j): a layer, the maximum with zero, a second layer. -/
theorem head_apply {Q : ℕ} (wf : DotDims.WF ⟨2, ![65536, 128]⟩ ⟨2, ![128, Q]⟩ ⟨2, ![65536, Q]⟩ [1] [0] [0] [1] [] [])
    (Hd : FVec Ideal S65536x128 .f32) (M : FVec Ideal S128x128 .f32) (m : FVec Ideal S128 .f32)
    (O : FVec Ideal ⟨2, ![128, Q]⟩ .f32) (o : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![65536, Q]⟩ ![0, 1]) (p : Fin 65536) (j : Fin Q)
    (h : Fin 128 → EReal) (mm : Fin 128 → Fin 128 → EReal) (mb : Fin 128 → EReal)
    (hh : ∀ k, Hd (ix2 p k) = h k) (hM : ∀ k j, M (ix2 k j) = mm k j) (hm : ∀ j, m (ix1 j) = mb j) :
    addf (Host.dotGeneral (mmDims 65536 128 Q wf) none
          (maximumf (addf (Host.dotGeneral dot_S65536x128_S128x128_S65536x128_1_0_0_1_n_n none Hd M) (broadcastInDim S65536x128 ![0, 1] bcast_S1x128_S65536x128_0_1 (broadcastInDim S1x128 ![1] bcast_S128_S1x128_1 m))) (broadcastInDim S65536x128 ![] bcast_S_S65536x128 (constant S_ .f32 0x00000000#32))) O)
        (broadcastInDim ⟨2, ![65536, Q]⟩ ![0, 1] h2 (broadcastInDim ⟨2, ![1, Q]⟩ ![1] h1 o)) (ix2 p j)
      = head h mm mb (fun k j => O (ix2 k j)) (fun j => o (ix1 j)) j := by
  have mid : ∀ k : Fin 128,
      maximumf (addf (Host.dotGeneral dot_S65536x128_S128x128_S65536x128_1_0_0_1_n_n none Hd M) (broadcastInDim S65536x128 ![0, 1] bcast_S1x128_S65536x128_0_1 (broadcastInDim S1x128 ![1] bcast_S128_S1x128_1 m))) (broadcastInDim S65536x128 ![] bcast_S_S65536x128 (constant S_ .f32 0x00000000#32)) (ix2 p k)
        = max (affine h mm mb k) zeroWord := by
    intro k
    show max ((FloatOps.dotGeneral (mmDims 65536 128 128 dot_S65536x128_S128x128_S65536x128_1_0_0_1_n_n_wf) none _ Hd M (ix2 p k))
        + (broadcastInDim S65536x128 ![0, 1] bcast_S1x128_S65536x128_0_1 (broadcastInDim S1x128 ![1] bcast_S128_S1x128_1 m)) (ix2 p k)) zeroWord = _
    rw [dotGeneral_apply_ix2, bias_apply]
    unfold affine
    simp only [hh, hM, hm]
  rw [layer_apply]
  unfold head
  show _ = (∑ k, max (affine h mm mb k) zeroWord * O (ix2 k j)) + o (ix1 j)
  simp only [mid]

/-! ## The program's key arrays, entry by entry -/

variable (x0 : FVec Ideal S65536x128 .f32) (x1 x2 : FVec Ideal S3x128x512 .f32) (x3 : FVec Ideal S3x512 .f32)
  (x4 : FVec Ideal S128x128 .f32) (x5 : FVec Ideal S128 .f32) (x6 : FVec Ideal S128x128 .f32) (x7 : FVec Ideal S128 .f32)
  (x8 : FVec Ideal S3x128x128 .f32) (x9 : FVec Ideal S3x128 .f32) (x10 : FVec Ideal S128x103 .f32)
  (x11 : FVec Ideal S103 .f32) (x12 : FVec Ideal S128x119 .f32) (x13 : FVec Ideal S119 .f32)
  (x14 : FVec Ideal S128x11 .f32) (x15 : FVec Ideal S11 .f32)

/-- The parameters of the one-row network, read off the fifteen parameter arrays. -/
local notation "P" => arrayParams x1 x2 x3 x4 x5 x6 x7 x8 x9 x10 x11 x12 x13 x14 x15
/-- Row p of the input. -/
local notation "row" p => (fun k : Fin 128 => x0 (ix2 p k))

/-- The first cell's pre-activations. -/
theorem z1_stage (p : Fin 65536) (j : Fin 512) :
    val_main_v12 (F := Ideal) x0 x1 x2 x3 (ix2 p j) = z1 P (row p) j := by
  refine pre_apply x0 (val_main_v0 (F := Ideal)) (val_main_v2 (F := Ideal) x1) (val_main_v4 (F := Ideal) x2)
    (val_main_v6 (F := Ideal) x3) p j _ _ _ _ _ ?_ ?_ ?_ ?_ ?_
  · intro k; rfl
  · intro k; rfl
  · intro k j; exact slab_apply 0 0 rfl x1 _ _ k j
  · intro k j; exact slab_apply 0 0 rfl x2 _ _ k j
  · intro j; exact stackRow_apply 0 0 rfl x3 _ _ j

/-- The first cell's carried row. -/
theorem c1_stage (p : Fin 65536) (q : Fin 128) :
    val_main_v32 (F := Ideal) x0 x1 x2 x3 (ix2 p q) = c1 P (row p) q := by
  refine carry_apply (val_main_v12 (F := Ideal) x0 x1 x2 x3) (val_main_v0 (F := Ideal)) p q _ _ ?_ ?_
  · intro j; exact z1_stage x0 x1 x2 x3 x4 x5 x6 x7 x8 x9 x10 x11 x12 x13 x14 x15 p j
  · intro k; rfl

/-- The first cell's hidden row. -/
theorem h1_stage (p : Fin 65536) (q : Fin 128) :
    val_main_v40 (F := Ideal) x0 x1 x2 x3 (ix2 p q) = h1 P (row p) q := by
  refine hidden_apply (val_main_v12 (F := Ideal) x0 x1 x2 x3) (val_main_v32 (F := Ideal) x0 x1 x2 x3) p q _ _ ?_ ?_
  · intro j; exact z1_stage x0 x1 x2 x3 x4 x5 x6 x7 x8 x9 x10 x11 x12 x13 x14 x15 p j
  · exact c1_stage x0 x1 x2 x3 x4 x5 x6 x7 x8 x9 x10 x11 x12 x13 x14 x15 p q

/-- The second cell's pre-activations. -/
theorem z2_stage (p : Fin 65536) (j : Fin 512) :
    val_main_v52 (F := Ideal) x0 x1 x2 x3 (ix2 p j) = z2 P (row p) j := by
  refine pre_apply x0 (val_main_v40 (F := Ideal) x0 x1 x2 x3) (val_main_v42 (F := Ideal) x1) (val_main_v44 (F := Ideal) x2)
    (val_main_v46 (F := Ideal) x3) p j _ _ _ _ _ ?_ ?_ ?_ ?_ ?_
  · intro k; rfl
  · intro k; exact h1_stage x0 x1 x2 x3 x4 x5 x6 x7 x8 x9 x10 x11 x12 x13 x14 x15 p k
  · intro k j; exact slab_apply 1 1 rfl x1 _ _ k j
  · intro k j; exact slab_apply 1 1 rfl x2 _ _ k j
  · intro j; exact stackRow_apply 1 1 rfl x3 _ _ j

/-- The second cell's carried row. -/
theorem c2_stage (p : Fin 65536) (q : Fin 128) :
    val_main_v72 (F := Ideal) x0 x1 x2 x3 (ix2 p q) = c2 P (row p) q := by
  refine carry_apply (val_main_v52 (F := Ideal) x0 x1 x2 x3) (val_main_v32 (F := Ideal) x0 x1 x2 x3) p q _ _ ?_ ?_
  · intro j; exact z2_stage x0 x1 x2 x3 x4 x5 x6 x7 x8 x9 x10 x11 x12 x13 x14 x15 p j
  · intro k; exact c1_stage x0 x1 x2 x3 x4 x5 x6 x7 x8 x9 x10 x11 x12 x13 x14 x15 p k

/-- The second cell's hidden row. -/
theorem h2_stage (p : Fin 65536) (q : Fin 128) :
    val_main_v80 (F := Ideal) x0 x1 x2 x3 (ix2 p q) = h2 P (row p) q := by
  refine hidden_apply (val_main_v52 (F := Ideal) x0 x1 x2 x3) (val_main_v72 (F := Ideal) x0 x1 x2 x3) p q _ _ ?_ ?_
  · intro j; exact z2_stage x0 x1 x2 x3 x4 x5 x6 x7 x8 x9 x10 x11 x12 x13 x14 x15 p j
  · exact c2_stage x0 x1 x2 x3 x4 x5 x6 x7 x8 x9 x10 x11 x12 x13 x14 x15 p q

/-- The hidden row handed to the third cell. -/
theorem h3in_stage (p : Fin 65536) (j : Fin 128) :
    val_main_v85 (F := Ideal) x0 x1 x2 x3 x4 x5 (ix2 p j) = h3in P (row p) j := by
  refine fuse_apply (val_main_v40 (F := Ideal) x0 x1 x2 x3) (val_main_v80 (F := Ideal) x0 x1 x2 x3) x4 x5 p j _ _ ?_ ?_
  · intro k; exact h1_stage x0 x1 x2 x3 x4 x5 x6 x7 x8 x9 x10 x11 x12 x13 x14 x15 p k
  · intro k; exact h2_stage x0 x1 x2 x3 x4 x5 x6 x7 x8 x9 x10 x11 x12 x13 x14 x15 p k

/-- The carried row handed to the third cell. -/
theorem c3in_stage (p : Fin 65536) (j : Fin 128) :
    val_main_v90 (F := Ideal) x0 x1 x2 x3 x6 x7 (ix2 p j) = c3in P (row p) j := by
  refine fuse_apply (val_main_v32 (F := Ideal) x0 x1 x2 x3) (val_main_v72 (F := Ideal) x0 x1 x2 x3) x6 x7 p j _ _ ?_ ?_
  · intro k; exact c1_stage x0 x1 x2 x3 x4 x5 x6 x7 x8 x9 x10 x11 x12 x13 x14 x15 p k
  · intro k; exact c2_stage x0 x1 x2 x3 x4 x5 x6 x7 x8 x9 x10 x11 x12 x13 x14 x15 p k

/-- The third cell's pre-activations. -/
theorem z3_stage (p : Fin 65536) (j : Fin 512) :
    val_main_v102 (F := Ideal) x0 x1 x2 x3 x4 x5 (ix2 p j) = z3 P (row p) j := by
  refine pre_apply x0 (val_main_v85 (F := Ideal) x0 x1 x2 x3 x4 x5) (val_main_v92 (F := Ideal) x1) (val_main_v94 (F := Ideal) x2)
    (val_main_v96 (F := Ideal) x3) p j _ _ _ _ _ ?_ ?_ ?_ ?_ ?_
  · intro k; rfl
  · intro k; exact h3in_stage x0 x1 x2 x3 x4 x5 x6 x7 x8 x9 x10 x11 x12 x13 x14 x15 p k
  · intro k j; exact slab_apply 2 2 rfl x1 _ _ k j
  · intro k j; exact slab_apply 2 2 rfl x2 _ _ k j
  · intro j; exact stackRow_apply 2 2 rfl x3 _ _ j

/-- The third cell's carried row. -/
theorem c3_stage (p : Fin 65536) (q : Fin 128) :
    val_main_v122 (F := Ideal) x0 x1 x2 x3 x4 x5 x6 x7 (ix2 p q) = carry (z3 P (row p)) (c3in P (row p)) q := by
  refine carry_apply (val_main_v102 (F := Ideal) x0 x1 x2 x3 x4 x5) (val_main_v90 (F := Ideal) x0 x1 x2 x3 x6 x7) p q _ _ ?_ ?_
  · intro j; exact z3_stage x0 x1 x2 x3 x4 x5 x6 x7 x8 x9 x10 x11 x12 x13 x14 x15 p j
  · intro k; exact c3in_stage x0 x1 x2 x3 x4 x5 x6 x7 x8 x9 x10 x11 x12 x13 x14 x15 p k

/-- The third cell's hidden row. -/
theorem h3_stage (p : Fin 65536) (q : Fin 128) :
    val_main_v130 (F := Ideal) x0 x1 x2 x3 x4 x5 x6 x7 (ix2 p q) = h3 P (row p) q := by
  refine hidden_apply (val_main_v102 (F := Ideal) x0 x1 x2 x3 x4 x5) (val_main_v122 (F := Ideal) x0 x1 x2 x3 x4 x5 x6 x7) p q _ _ ?_ ?_
  · intro j; exact z3_stage x0 x1 x2 x3 x4 x5 x6 x7 x8 x9 x10 x11 x12 x13 x14 x15 p j
  · exact c3_stage x0 x1 x2 x3 x4 x5 x6 x7 x8 x9 x10 x11 x12 x13 x14 x15 p q

/-! ## The three results -/

/-- The first result at (p, j). -/
theorem out1_stage (p : Fin 65536) (j : Fin 103) :
    val_main_v143 (F := Ideal) x0 x1 x2 x3 x8 x9 x10 x11 (ix2 p j) = out1 P (row p) j := by
  refine head_apply dot_S65536x128_S128x103_S65536x103_1_0_0_1_n_n_wf (val_main_v40 (F := Ideal) x0 x1 x2 x3)
    (val_main_v132 (F := Ideal) x8) (val_main_v135 (F := Ideal) x9) x10 x11 _ _ p j _ _ _ ?_ ?_ ?_
  · intro k; exact h1_stage x0 x1 x2 x3 x4 x5 x6 x7 x8 x9 x10 x11 x12 x13 x14 x15 p k
  · intro k j; exact slab_apply 0 0 rfl x8 _ _ k j
  · intro j; exact stackRow_apply 0 0 rfl x9 _ _ j

/-- The second result at (p, j). -/
theorem out2_stage (p : Fin 65536) (j : Fin 119) :
    val_main_v156 (F := Ideal) x0 x1 x2 x3 x8 x9 x12 x13 (ix2 p j) = out2 P (row p) j := by
  refine head_apply dot_S65536x128_S128x119_S65536x119_1_0_0_1_n_n_wf (val_main_v80 (F := Ideal) x0 x1 x2 x3)
    (val_main_v145 (F := Ideal) x8) (val_main_v148 (F := Ideal) x9) x12 x13 _ _ p j _ _ _ ?_ ?_ ?_
  · intro k; exact h2_stage x0 x1 x2 x3 x4 x5 x6 x7 x8 x9 x10 x11 x12 x13 x14 x15 p k
  · intro k j; exact slab_apply 1 1 rfl x8 _ _ k j
  · intro j; exact stackRow_apply 1 1 rfl x9 _ _ j

/-- The third result at (p, j). -/
theorem out3_stage (p : Fin 65536) (j : Fin 11) :
    val_main_v169 (F := Ideal) x0 x1 x2 x3 x4 x5 x6 x7 x8 x9 x14 x15 (ix2 p j) = out3 P (row p) j := by
  refine head_apply dot_S65536x128_S128x11_S65536x11_1_0_0_1_n_n_wf (val_main_v130 (F := Ideal) x0 x1 x2 x3 x4 x5 x6 x7)
    (val_main_v158 (F := Ideal) x8) (val_main_v161 (F := Ideal) x9) x14 x15 _ _ p j _ _ _ ?_ ?_ ?_
  · intro k; exact h3_stage x0 x1 x2 x3 x4 x5 x6 x7 x8 x9 x10 x11 x12 x13 x14 x15 p k
  · intro k j; exact slab_apply 2 2 rfl x8 _ _ k j
  · intro j; exact stackRow_apply 2 2 rfl x9 _ _ j

/-- The first result is the first output of the one-row network on every row. -/
theorem out1_rows :
    val_main_v143 (F := Ideal) x0 x1 x2 x3 x8 x9 x10 x11 = onRows (out1 P) x0 := by
  funext i
  obtain ⟨p, q, rfl⟩ : ∃ (p : Fin 65536) (q : Fin 103), i = ix2 p q := ⟨i 0, i 1, eq_ix2 i⟩
  rw [onRows_apply]
  exact out1_stage x0 x1 x2 x3 x4 x5 x6 x7 x8 x9 x10 x11 x12 x13 x14 x15 p q

/-- The second result is the second output of the one-row network on every row. -/
theorem out2_rows :
    val_main_v156 (F := Ideal) x0 x1 x2 x3 x8 x9 x12 x13 = onRows (out2 P) x0 := by
  funext i
  obtain ⟨p, q, rfl⟩ : ∃ (p : Fin 65536) (q : Fin 119), i = ix2 p q := ⟨i 0, i 1, eq_ix2 i⟩
  rw [onRows_apply]
  exact out2_stage x0 x1 x2 x3 x4 x5 x6 x7 x8 x9 x10 x11 x12 x13 x14 x15 p q

/-- The third result is the third output of the one-row network on every row. -/
theorem out3_rows :
    val_main_v169 (F := Ideal) x0 x1 x2 x3 x4 x5 x6 x7 x8 x9 x14 x15 = onRows (out3 P) x0 := by
  funext i
  obtain ⟨p, q, rfl⟩ : ∃ (p : Fin 65536) (q : Fin 11), i = ix2 p q := ⟨i 0, i 1, eq_ix2 i⟩
  rw [onRows_apply]
  exact out3_stage x0 x1 x2 x3 x4 x5 x6 x7 x8 x9 x10 x11 x12 x13 x14 x15 p q

end Cert.ReferenceRows

end
-- ==== Proof.Claims.lean ====
/-
  The five claims.

  The frames of the two kernels are the generated ones; the reference has no kernel, and its frame is its run with the
  results dropped.  The idealization ledger is empty, so there is nothing to preserve.  For the value claim both runs
  end with each result array at ONE function of the argument arrays: the network of Cert.DecoderRow applied to every
  row of x, the parameters read off the argument arrays by coordinates — the kernel's by Cert.KernelArrays.run, the
  reference's by its generated run read row by row (Cert.ReferenceRows) —, and the two memories agree on the arguments.
-/
import proofs.«147460_j49624052138309_2_alg».proof.Defs
import proofs.«147460_j49624052138309_2_alg».proof.Proof.Gen.Kernel.Frame
import proofs.«147460_j49624052138309_2_alg».proof.Proof.Gen.KernelIdeal.Frame
import proofs.«147460_j49624052138309_2_alg».proof.Proof.Gen.ReferenceIdeal.Run
import proofs.«147460_j49624052138309_2_alg».proof.Proof.Gen.ReferenceIdeal.Read
import proofs.«147460_j49624052138309_2_alg».proof.Proof.Gen.Pre_finite_inputs
import proofs.«147460_j49624052138309_2_alg».proof.Proof.KernelArrays
import proofs.«147460_j49624052138309_2_alg».proof.Proof.ReferenceRows

set_option maxRecDepth 16384

noncomputable section

namespace Cert.Proof.Claims

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The ledger of the idealization is empty. -/
theorem preserves : Cert.preserves_Kernel_KernelIdeal := trivial

/-- Both programs end with the network applied to every row of x. -/
theorem algebraic : Cert.algebraic_KernelIdeal_ReferenceIdeal := by
  intro m ρ m' ρ' _ hagree
  refine ⟨fun c => Cert.KernelArrays.result1 m c, fun c => Cert.KernelArrays.result2 m c,
    fun c => Cert.KernelArrays.result3 m c, Cert.KernelArrays.run m ρ, ?_⟩
  refine (θ_run Cert.ReferenceIdeal.defs _ _).mono
    (fun _ h c => ⟨(h c).1.trans ?_, (h c).2.1.trans ?_, (h c).2.2.1.trans ?_, (h c).2.2.2⟩)
    (Cert.ReferenceIdeal.Value.run (F := Ideal) m' ρ')
  · obtain ⟨e0, e1, e2, e3, e4, e5, e6, e7, e8, e9, e10, e11, e12, e13, e14, e15⟩ := hagree c
    rw [Cert.ReferenceIdeal.Read.val_main_v143_eq, Cert.ReferenceRows.out1_rows
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15)),
      e0, e1, e2, e3, e4, e5, e6, e7, e8, e9, e10, e11, e12, e13, e14, e15]
    rfl
  · obtain ⟨e0, e1, e2, e3, e4, e5, e6, e7, e8, e9, e10, e11, e12, e13, e14, e15⟩ := hagree c
    rw [Cert.ReferenceIdeal.Read.val_main_v156_eq, Cert.ReferenceRows.out2_rows
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15)),
      e0, e1, e2, e3, e4, e5, e6, e7, e8, e9, e10, e11, e12, e13, e14, e15]
    rfl
  · obtain ⟨e0, e1, e2, e3, e4, e5, e6, e7, e8, e9, e10, e11, e12, e13, e14, e15⟩ := hagree c
    rw [Cert.ReferenceIdeal.Read.val_main_v169_eq, Cert.ReferenceRows.out3_rows
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))
      (m' ((c.tc : Thread Cert.ReferenceIdeal.nD Cert.ReferenceIdeal.τ).loc Cert.ReferenceIdeal.main_arg13))
      (m' ((c.tc : Thread Cert.ReferenceIdeal.nD Cert.ReferenceIdeal.τ).loc Cert.ReferenceIdeal.main_arg14))
      (m' ((c.tc : Thread Cert.ReferenceIdeal.nD Cert.ReferenceIdeal.τ).loc Cert.ReferenceIdeal.main_arg15)),
      e0, e1, e2, e3, e4, e5, e6, e7, e8, e9, e10, e11, e12, e13, e14, e15]
    rfl

end Cert.Proof.Claims

end
-- ==== Proof.lean ====
/- The proof of Cert.Claim: the decoder kernel (three gated cells with a stacked K = 256 product per cell, a fused state
   for the third cell, three two-layer heads, sixteen row blocks) against its plain reference, over the extended reals.
   Proof/DecoderRow.lean states the network on one row; Proof/KernelLayers.lean and Proof/KernelStages.lean read the
   kernel's body at one row of one block; Proof/KernelArrays.lean passes from blocks to the whole result arrays;
   Proof/ReferenceRows.lean reads the reference's run row by row; Proof/Claims.lean states the five claims.  The
   witnesses of the programs' stated facts are the instances the generated Proof/Gen modules prove. -/
import proofs.«147460_j49624052138309_2_alg».proof.Defs
import proofs.«147460_j49624052138309_2_alg».proof.Proof.Gen.Kernel
import proofs.«147460_j49624052138309_2_alg».proof.Proof.Gen.Kernel.Skeleton
import proofs.«147460_j49624052138309_2_alg».proof.Proof.Gen.Kernel.Launch
import proofs.«147460_j49624052138309_2_alg».proof.Proof.Gen.Kernel.Points
import proofs.«147460_j49624052138309_2_alg».proof.Proof.Gen.Kernel.Frame
import proofs.«147460_j49624052138309_2_alg».proof.Proof.Gen.KernelIdeal
import proofs.«147460_j49624052138309_2_alg».proof.Proof.Gen.KernelIdeal.Skeleton
import proofs.«147460_j49624052138309_2_alg».proof.Proof.Gen.KernelIdeal.Launch
import proofs.«147460_j49624052138309_2_alg».proof.Proof.Gen.KernelIdeal.Points
import proofs.«147460_j49624052138309_2_alg».proof.Proof.Gen.KernelIdeal.Frame
import proofs.«147460_j49624052138309_2_alg».proof.Proof.Gen.ReferenceIdeal
import proofs.«147460_j49624052138309_2_alg».proof.Proof.Gen.Pre_finite_inputs
import proofs.«147460_j49624052138309_2_alg».proof.Proof.Gen.KernelIdeal.Value
import proofs.«147460_j49624052138309_2_alg».proof.Proof.Gen.ReferenceIdeal.Run
import proofs.«147460_j49624052138309_2_alg».proof.Proof.Gen.ReferenceIdeal.Read
import proofs.«147460_j49624052138309_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
